-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S12500 : Shape := ⟨1, ![12500]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : IVec S12500 32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S12500 : Shape := ⟨1, ![12500]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x64 : Shape := ⟨2, ![2000, 64]⟩
abbrev S850000x64 : Shape := ⟨2, ![850000, 64]⟩
abbrev S1x64 : Shape := ⟨2, ![1, 64]⟩
abbrev S12500x1 : Shape := ⟨2, ![12500, 1]⟩
abbrev S12500x64 : Shape := ⟨2, ![12500, 64]⟩
abbrev S12500x192 : Shape := ⟨2, ![12500, 192]⟩

abbrev nBuf : Space → Nat
  | .hbm => 135
  | .vmem => 30
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S12500, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x64, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S_, .i32⟩
  | 70 => ⟨S12500, .i32⟩
  | 71 => ⟨S12500, .i1⟩
  | 72 => ⟨S_, .i32⟩
  | 73 => ⟨S12500, .i32⟩
  | 74 => ⟨S12500, .i32⟩
  | 75 => ⟨S12500, .i32⟩
  | 76 => ⟨S12500x1, .i32⟩
  | 77 => ⟨S12500x64, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x1, .f32⟩
  | 89 => ⟨S850000x64, .f32⟩
  | 90 => ⟨S850000x64, .f32⟩
  | 91 => ⟨S_, .f32⟩
  | 92 => ⟨S50000x64, .f32⟩
  | 93 => ⟨S850000x1, .i32⟩
  | 94 => ⟨S50000x64, .f32⟩
  | 95 => ⟨S1x64, .f32⟩
  | 96 => ⟨S50000x64, .f32⟩
  | 97 => ⟨S_, .i32⟩
  | 98 => ⟨S12500, .i32⟩
  | 99 => ⟨S12500, .i1⟩
  | 100 => ⟨S_, .i32⟩
  | 101 => ⟨S12500, .i32⟩
  | 102 => ⟨S12500, .i32⟩
  | 103 => ⟨S12500, .i32⟩
  | 104 => ⟨S12500x1, .i32⟩
  | 105 => ⟨S12500x64, .f32⟩
  | 106 => ⟨S50000x64, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S_, .i32⟩
  | 126 => ⟨S12500, .i32⟩
  | 127 => ⟨S12500, .i1⟩
  | _ => ⟨S50000x64, .f32⟩

abbrev hbmTy0_1 (i : Nat) : BufTy := match i % 128 with
  | 0 => ⟨S_, .i32⟩
  | 1 => ⟨S12500, .i32⟩
  | 2 => ⟨S12500, .i32⟩
  | 3 => ⟨S12500, .i32⟩
  | 4 => ⟨S12500x1, .i32⟩
  | 5 => ⟨S12500x64, .f32⟩
  | 6 => ⟨S12500x192, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_c_20 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S12500 : S_.BroadcastsInDim S12500 (![] : Fin 0 → Fin S12500.rank)
  bcast_S12500_S12500x1_0 : S12500.BroadcastsInDim S12500x1 (![0] : Fin 1 → Fin S12500x1.rank)
  concatenates_S12500x64_S12500x64_S12500x64_S12500x192_d1 : Shape.Concatenates [S12500x64, S12500x64, S12500x64] S12500x192 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S12500x1_S12500x64_1_0_n_n_0_1_164_wf : GatherDims.WF S50000x64 S12500x1 S12500x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S12500x1_S12500x64_1_0_n_n_0_1_164 : GatherDims S50000x64 S12500x1 S12500x64 where
  offsetDims := [1]
  collapsedSliceDims := [0]
  operandBatchingDims := []
  startIndicesBatchingDims := []
  startIndexMap := [0]
  indexVectorDim := 1
  sliceSizes := ![1, 64]
  wf := gather_S50000x64_S12500x1_S12500x64_1_0_n_n_0_1_164_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v89) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S12500 : Shape := ⟨1, ![12500]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S12500x1 : Shape := ⟨2, ![12500, 1]⟩
abbrev S12500x64 : Shape := ⟨2, ![12500, 64]⟩
abbrev S12500x192 : Shape := ⟨2, ![12500, 192]⟩

abbrev nBuf : Space → Nat
  | .hbm => 234
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S12500, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x64, .f32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S_, .i32⟩
  | 79 => ⟨S12500, .i32⟩
  | 80 => ⟨S12500, .i1⟩
  | 81 => ⟨S_, .i32⟩
  | 82 => ⟨S12500, .i32⟩
  | 83 => ⟨S12500, .i32⟩
  | 84 => ⟨S12500, .i32⟩
  | 85 => ⟨S12500x1, .i32⟩
  | 86 => ⟨S12500x64, .f32⟩
  | 87 => ⟨S50000x64, .f32⟩
  | 88 => ⟨S50000, .i32⟩
  | 89 => ⟨S850000, .i32⟩
  | 90 => ⟨S850000, .i32⟩
  | 91 => ⟨S_, .f32⟩
  | 92 => ⟨S850000, .f32⟩
  | 93 => ⟨S_, .f32⟩
  | 94 => ⟨S50000, .f32⟩
  | 95 => ⟨S850000x1, .i32⟩
  | 96 => ⟨S50000, .f32⟩
  | 97 => ⟨S_, .f32⟩
  | 98 => ⟨S50000, .f32⟩
  | 99 => ⟨S50000, .i1⟩
  | 100 => ⟨S50000, .f32⟩
  | 101 => ⟨S_, .f32⟩
  | 102 => ⟨S_, .f32⟩
  | 103 => ⟨S50000, .f32⟩
  | 104 => ⟨S50000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S850000, .f32⟩
  | 124 => ⟨S_, .i32⟩
  | 125 => ⟨S850000, .i32⟩
  | 126 => ⟨S850000, .i1⟩
  | 127 => ⟨S_, .i32⟩
  | _ => ⟨S50000x64, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S50000x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S_, .i32⟩
  | 24 => ⟨S12500, .i32⟩
  | 25 => ⟨S12500, .i1⟩
  | 26 => ⟨S_, .i32⟩
  | 27 => ⟨S12500, .i32⟩
  | 28 => ⟨S12500, .i32⟩
  | 29 => ⟨S12500, .i32⟩
  | 30 => ⟨S12500x1, .i32⟩
  | 31 => ⟨S12500x64, .f32⟩
  | 32 => ⟨S50000x64, .f32⟩
  | 33 => ⟨S50000, .i32⟩
  | 34 => ⟨S850000, .i32⟩
  | 35 => ⟨S850000, .i32⟩
  | 36 => ⟨S_, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x64, .f32⟩
  | 78 => ⟨S850000x1, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .i32⟩
  | 97 => ⟨S12500, .i32⟩
  | 98 => ⟨S12500, .i1⟩
  | 99 => ⟨S_, .i32⟩
  | 100 => ⟨S12500, .i32⟩
  | 101 => ⟨S12500, .i32⟩
  | 102 => ⟨S12500, .i32⟩
  | 103 => ⟨S12500x1, .i32⟩
  | 104 => ⟨S12500x64, .f32⟩
  | 105 => ⟨S12500x192, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_call1_v0 : Ref sig .tc := ⟨.hbm, 102, rfl⟩
abbrev main_call1_v1 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_21 : Ref sig .tc := ⟨.hbm, 124, rfl⟩
abbrev main_v87 : Ref sig .tc := ⟨.hbm, 125, rfl⟩
abbrev main_v88 : Ref sig .tc := ⟨.hbm, 126, rfl⟩
abbrev main_c_22 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_23 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_24 : Ref sig .tc := ⟨.hbm, 145, rfl⟩
abbrev main_v105 : Ref sig .tc := ⟨.hbm, 146, rfl⟩
abbrev main_v106 : Ref sig .tc := ⟨.hbm, 147, rfl⟩
abbrev main_cst_25 : Ref sig .tc := ⟨.hbm, 148, rfl⟩
abbrev main_v107 : Ref sig .tc := ⟨.hbm, 149, rfl⟩
abbrev main_v108 : Ref sig .tc := ⟨.hbm, 150, rfl⟩
abbrev main_c_26 : Ref sig .tc := ⟨.hbm, 151, rfl⟩
abbrev main_v109 : Ref sig .tc := ⟨.hbm, 152, rfl⟩
abbrev main_v110 : Ref sig .tc := ⟨.hbm, 153, rfl⟩
abbrev main_c_27 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_28 : Ref sig .tc := ⟨.hbm, 164, rfl⟩
abbrev main_v120 : Ref sig .tc := ⟨.hbm, 165, rfl⟩
abbrev main_cst_29 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_30 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_31 : Ref sig .tc := ⟨.hbm, 174, rfl⟩
abbrev main_call2_v0 : Ref sig .tc := ⟨.hbm, 175, rfl⟩
abbrev main_call2_v1 : Ref sig .tc := ⟨.hbm, 176, rfl⟩
abbrev main_v127 : Ref sig .tc := ⟨.hbm, 177, rfl⟩
abbrev main_c_32 : Ref sig .tc := ⟨.hbm, 178, rfl⟩
abbrev main_v128 : Ref sig .tc := ⟨.hbm, 179, rfl⟩
abbrev main_v129 : Ref sig .tc := ⟨.hbm, 180, rfl⟩
abbrev main_c_33 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_34 : Ref sig .tc := ⟨.hbm, 187, rfl⟩
abbrev main_v135 : Ref sig .tc := ⟨.hbm, 188, rfl⟩
abbrev main_v136 : Ref sig .tc := ⟨.hbm, 189, rfl⟩
abbrev main_c_35 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_c_36 : Ref sig .tc := ⟨.hbm, 197, rfl⟩
abbrev main_v143 : Ref sig .tc := ⟨.hbm, 198, rfl⟩
abbrev main_v144 : Ref sig .tc := ⟨.hbm, 199, rfl⟩
abbrev main_c_37 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_38 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_39 : Ref sig .tc := ⟨.hbm, 218, rfl⟩
abbrev main_v161 : Ref sig .tc := ⟨.hbm, 219, rfl⟩
abbrev main_v162 : Ref sig .tc := ⟨.hbm, 220, rfl⟩
abbrev main_cst_40 : Ref sig .tc := ⟨.hbm, 221, rfl⟩
abbrev main_v163 : Ref sig .tc := ⟨.hbm, 222, rfl⟩
abbrev main_v164 : Ref sig .tc := ⟨.hbm, 223, rfl⟩
abbrev main_c_41 : Ref sig .tc := ⟨.hbm, 224, rfl⟩
abbrev main_v165 : Ref sig .tc := ⟨.hbm, 225, rfl⟩
abbrev main_v166 : Ref sig .tc := ⟨.hbm, 226, rfl⟩
abbrev main_c_42 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S12500 : S_.BroadcastsInDim S12500 (![] : Fin 0 → Fin S12500.rank)
  bcast_S12500_S12500x1_0 : S12500.BroadcastsInDim S12500x1 (![0] : Fin 1 → Fin S12500x1.rank)
  concatenates_S12500x64_S12500x64_S12500x64_S12500x192_d1 : Shape.Concatenates [S12500x64, S12500x64, S12500x64] S12500x192 1
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S12500x1_S12500x64_1_0_n_n_0_1_164_wf : GatherDims.WF S50000x64 S12500x1 S12500x64 [1] [0] [] [0] [] 1 ![1, 64]

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S12500x1_S12500x64_1_0_n_n_0_1_164 : GatherDims S50000x64 S12500x1 S12500x64 where
  offsetDims := [1]
  collapsedSliceDims := [0]
  operandBatchingDims := []
  startIndicesBatchingDims := []
  startIndexMap := [0]
  indexVectorDim := 1
  sliceSizes := ![1, 64]
  wf := gather_S50000x64_S12500x1_S12500x64_1_0_n_n_0_1_164_wf

class Facts : Prop extends Facts₀ where

variable [Facts]
-- ==== Proof.KBRegion0.lean ====
/-
  Region 0 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block when the body starts, whether or not a fetch happened at this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: it is fetched at the first point and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [2000,64] block, the one rectangle the body loads its rows through and stores its product through. -/
abbrev r0_0 : Rect S2000x64 := Rect.unit (s := S2000x64) ![0, 0] S2000x64.size inb_S2000x64_S2000x64_0_0
/-- The whole [64,64] matrix. -/
abbrev r0_1 : Rect S64x64 := Rect.unit (s := S64x64) ![0, 0] S64x64.size inb_S64x64_S64x64_0_0

/-- What the body leaves in the result's staging buffer: its one store, of the product of the two loaded blocks. -/
def out0_2 (x0 : Vec F S2000x64 .f32) (x1 : Vec F S64x64 .f32) : Vec F S2000x64 .f32 :=
  View.canon [⟨r0_0, k0_pay1 (View.ld x0 r0_0) (View.ld x1 r0_1)⟩]

/-- That one store covers the buffer. -/
theorem cover0_2 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

set_option maxHeartbeats 1000000 in
/-- The body run on whole staging buffers: the two inputs at `x0`, `x1` and the result's at anything; it ends with the
    inputs as they were and the result's buffer at `out0_2 x0 x1`. -/
theorem sound_kernel0 (c : Dev nD) (E : Set ℕ) (i : grid0.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: its arrays as the region finds them; after the body at a point each input's
    buffer still at its block and the result's at `out0_2` of the two input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBRegion1.lean ====
/-
  Region 1 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block when the body starts, whether or not a fetch happened at this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole row at every point: it is fetched at the first point and its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [2000,64] block, the one rectangle the body loads its rows through and stores its result through. -/
abbrev r1_0 : Rect S2000x64 := Rect.unit (s := S2000x64) ![0, 0] S2000x64.size inb_S2000x64_S2000x64_0_0
/-- The whole [1,64] row. -/
abbrev r1_1 : Rect S1x64 := Rect.unit (s := S1x64) ![0, 0] S1x64.size inb_S1x64_S1x64_0_0

/-- What the body leaves in the result's staging buffer: its one store, of the logistic function of the rows plus the bias row. -/
def out1_2 (x0 : Vec F S2000x64 .f32) (x1 : Vec F S1x64 .f32) : Vec F S2000x64 .f32 :=
  View.canon [⟨r1_0, k1_pay1 (View.ld x0 r1_0) (View.ld x1 r1_1)⟩]

/-- That one store covers the buffer. -/
theorem cover1_2 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 1000000 in
/-- The body run on whole staging buffers: the two inputs at `x0`, `x1` and the result's at anything; it ends with the
    inputs as they were and the result's buffer at `out1_2 x0 x1`. -/
theorem sound_kernel1 (c : Dev nD) (E : Set ℕ) (i : grid1.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_sigmoid_kernel i arg1 harg1 arg2 harg2 arg3 harg3) K := by
  simp only [cc1__bias_sigmoid_kernel_eq_skeleton]; unfold cc1__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: its arrays as the region finds them; after the body at a point each input's
    buffer still at its block and the result's at `out1_2` of the two input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KBRegion2.lean ====
/-
  Region 2 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the point's block when the body starts, whether or not a fetch happened at this point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point: it is fetched at the first point and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [2000,64] block, the one rectangle the body loads its rows through and stores its product through. -/
abbrev r2_0 : Rect S2000x64 := Rect.unit (s := S2000x64) ![0, 0] S2000x64.size inb_S2000x64_S2000x64_0_0
/-- The whole [64,64] matrix. -/
abbrev r2_1 : Rect S64x64 := Rect.unit (s := S64x64) ![0, 0] S64x64.size inb_S64x64_S64x64_0_0

/-- What the body leaves in the result's staging buffer: its one store, of the product of the two loaded blocks. -/
def out2_2 (x0 : Vec F S2000x64 .f32) (x1 : Vec F S64x64 .f32) : Vec F S2000x64 .f32 :=
  View.canon [⟨r2_0, k2_pay1 (View.ld x0 r2_0) (View.ld x1 r2_1)⟩]

/-- That one store covers the buffer. -/
theorem cover2_2 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

set_option maxHeartbeats 1000000 in
/-- The body run on whole staging buffers: the two inputs at `x0`, `x1` and the result's at anything; it ends with the
    inputs as they were and the result's buffer at `out2_2 x0 x1`. -/
theorem sound_kernel2 (c : Dev nD) (E : Set ℕ) (i : grid2.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: its arrays as the region finds them; after the body at a point each input's
    buffer still at its block and the result's at `out2_2` of the two input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KBRegion3.lean ====
/-
  Region 3 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the point's block when the body starts, whether or not a fetch happened at this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the whole row at every point: it is fetched at the first point and its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole [2000,64] block, the one rectangle the body loads its rows through and stores its result through. -/
abbrev r3_0 : Rect S2000x64 := Rect.unit (s := S2000x64) ![0, 0] S2000x64.size inb_S2000x64_S2000x64_0_0
/-- The whole [1,64] row. -/
abbrev r3_1 : Rect S1x64 := Rect.unit (s := S1x64) ![0, 0] S1x64.size inb_S1x64_S1x64_0_0

/-- What the body leaves in the result's staging buffer: its one store, of the logistic function of the rows plus the bias row. -/
def out3_2 (x0 : Vec F S2000x64 .f32) (x1 : Vec F S1x64 .f32) : Vec F S2000x64 .f32 :=
  View.canon [⟨r3_0, k3_pay1 (View.ld x0 r3_0) (View.ld x1 r3_1)⟩]

/-- That one store covers the buffer. -/
theorem cover3_2 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body run on whole staging buffers: the two inputs at `x0`, `x1` and the result's at anything; it ends with the
    inputs as they were and the result's buffer at `out3_2 x0 x1`. -/
theorem sound_kernel3 (c : Dev nD) (E : Set ℕ) (i : grid3.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_sigmoid_kernel i arg1 harg1 arg2 harg2 arg3 harg3) K := by
  simp only [cc3__bias_sigmoid_kernel_eq_skeleton]; unfold cc3__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: its arrays as the region finds them; after the body at a point each input's
    buffer still at its block and the result's at `out3_2` of the two input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KBRegion4.lean ====
/-
  Region 4 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the point's block when the body starts, whether or not a fetch happened at this point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point: it is fetched at the first point and its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole [2000,64] block, the one rectangle the body loads its rows through and stores its product through. -/
abbrev r4_0 : Rect S2000x64 := Rect.unit (s := S2000x64) ![0, 0] S2000x64.size inb_S2000x64_S2000x64_0_0
/-- The whole [64,64] matrix. -/
abbrev r4_1 : Rect S64x64 := Rect.unit (s := S64x64) ![0, 0] S64x64.size inb_S64x64_S64x64_0_0

/-- What the body leaves in the result's staging buffer: its one store, of the product of the two loaded blocks. -/
def out4_2 (x0 : Vec F S2000x64 .f32) (x1 : Vec F S64x64 .f32) : Vec F S2000x64 .f32 :=
  View.canon [⟨r4_0, k4_pay1 (View.ld x0 r4_0) (View.ld x1 r4_1)⟩]

/-- That one store covers the buffer. -/
theorem cover4_2 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

set_option maxHeartbeats 1000000 in
/-- The body run on whole staging buffers: the two inputs at `x0`, `x1` and the result's at anything; it ends with the
    inputs as they were and the result's buffer at `out4_2 x0 x1`. -/
theorem sound_kernel4 (c : Dev nD) (E : Set ℕ) (i : grid4.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this pipeline on core `c`: its arrays as the region finds them; after the body at a point each input's
    buffer still at its block and the result's at `out4_2` of the two input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KBRegion5.lean ====
/-
  Region 5 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.Kernel.Launch
import proofs.«122437_j7121055776908_1_alg».proof.Proof.Gen.Kernel.Skeleton
import proofs.«122437_j7121055776908_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block's staging buffer holds the point's block when the body starts, whether or not a fetch happened at this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's staging buffer holds the whole row at every point: it is fetched at the first point and its index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole [2000,64] block, the one rectangle the body loads its rows through and stores its result through. -/
abbrev r5_0 : Rect S2000x64 := Rect.unit (s := S2000x64) ![0, 0] S2000x64.size inb_S2000x64_S2000x64_0_0
/-- The whole [1,64] row. -/
abbrev r5_1 : Rect S1x64 := Rect.unit (s := S1x64) ![0, 0] S1x64.size inb_S1x64_S1x64_0_0

/-- What the body leaves in the result's staging buffer: its one store, of the logistic function of the rows plus the bias row. -/
def out5_2 (x0 : Vec F S2000x64 .f32) (x1 : Vec F S1x64 .f32) : Vec F S2000x64 .f32 :=
  View.canon [⟨r5_0, k5_pay1 (View.ld x0 r5_0) (View.ld x1 r5_1)⟩]

/-- That one store covers the buffer. -/
theorem cover5_2 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 1000000 in
/-- The body run on whole staging buffers: the two inputs at `x0`, `x1` and the result's at anything; it ends with the
    inputs as they were and the result's buffer at `out5_2 x0 x1`. -/
theorem sound_kernel5 (c : Dev nD) (E : Set ℕ) (i : grid5.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_sigmoid_kernel i arg1 harg1 arg2 harg2 arg3 harg3) K := by
  simp only [cc5__bias_sigmoid_kernel_eq_skeleton]; unfold cc5__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of this pipeline on core `c`: its arrays as the region finds them; after the body at a point each input's
    buffer still at its block and the result's at `out5_2` of the two input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KBRun.lean ====
/-
  The run of @main, segment by segment: nine stretches of host operations and six kernel regions.
  `W j c` is what core `c`'s buffers hold after the j-th segment: the launch memory, then each host stretch's
  operations applied in order, and after a region its three arrays at what the pipeline's write-backs leave (the
  two inputs as entered, the result block by block) with every other buffer as entered.
  From the segments' records the run theorem: every weakly fair execution of @main terminates, faults nowhere, and
  ends with every buffer that outlives a region at `W 15`. The frame claim follows because no segment writes an argument.
-/
import proofs.«122437_j7121055776908_1_alg».proof.Proof.Gen.Kernel.Regions
import proofs.«122437_j7121055776908_1_alg».proof.Proof.KBRegion0
import proofs.«122437_j7121055776908_1_alg».proof.Proof.KBRegion1
import proofs.«122437_j7121055776908_1_alg».proof.Proof.KBRegion2
import proofs.«122437_j7121055776908_1_alg».proof.Proof.KBRegion3
import proofs.«122437_j7121055776908_1_alg».proof.Proof.KBRegion4
import proofs.«122437_j7121055776908_1_alg».proof.Proof.KBRegion5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each segment -/

/-- At launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- A region's input arrays leave it as they entered. -/
theorem W4_in0 (c : Dev nD) : W4 m ρ c (Proc.devRef .tc (Pipeline.arrRef spec0 0)) = W3 m ρ c (Proc.devRef .tc (Pipeline.arrRef spec0 0)) :=
  (W4_arr m ρ c 0).trans (((dat0 (V3 m ρ) c).arrAt_in 0 rfl _).trans (A_eq0 (V3 m ρ) c 0))
theorem W4_in1 (c : Dev nD) : W4 m ρ c (Proc.devRef .tc (Pipeline.arrRef spec0 1)) = W3 m ρ c (Proc.devRef .tc (Pipeline.arrRef spec0 1)) :=
  (W4_arr m ρ c 1).trans (((dat0 (V3 m ρ) c).arrAt_in 1 rfl _).trans (A_eq0 (V3 m ρ) c 1))
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- A region's input arrays leave it as they entered. -/
theorem W6_in0 (c : Dev nD) : W6 m ρ c (Proc.devRef .tc (Pipeline.arrRef spec1 0)) = W5 m ρ c (Proc.devRef .tc (Pipeline.arrRef spec1 0)) :=
  (W6_arr m ρ c 0).trans (((dat1 (V5 m ρ) c).arrAt_in 0 rfl _).trans (A_eq1 (V5 m ρ) c 0))
theorem W6_in1 (c : Dev nD) : W6 m ρ c (Proc.devRef .tc (Pipeline.arrRef spec1 1)) = W5 m ρ c (Proc.devRef .tc (Pipeline.arrRef spec1 1)) :=
  (W6_arr m ρ c 1).trans (((dat1 (V5 m ρ) c).arrAt_in 1 rfl _).trans (A_eq1 (V5 m ρ) c 1))
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After region 2: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- A region's input arrays leave it as they entered. -/
theorem W8_in0 (c : Dev nD) : W8 m ρ c (Proc.devRef .tc (Pipeline.arrRef spec2 0)) = W7 m ρ c (Proc.devRef .tc (Pipeline.arrRef spec2 0)) :=
  (W8_arr m ρ c 0).trans (((dat2 (V7 m ρ) c).arrAt_in 0 rfl _).trans (A_eq2 (V7 m ρ) c 0))
theorem W8_in1 (c : Dev nD) : W8 m ρ c (Proc.devRef .tc (Pipeline.arrRef spec2 1)) = W7 m ρ c (Proc.devRef .tc (Pipeline.arrRef spec2 1)) :=
  (W8_arr m ρ c 1).trans (((dat2 (V7 m ρ) c).arrAt_in 1 rfl _).trans (A_eq2 (V7 m ρ) c 1))
/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- After region 3: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- A region's input arrays leave it as they entered. -/
theorem W10_in0 (c : Dev nD) : W10 m ρ c (Proc.devRef .tc (Pipeline.arrRef spec3 0)) = W9 m ρ c (Proc.devRef .tc (Pipeline.arrRef spec3 0)) :=
  (W10_arr m ρ c 0).trans (((dat3 (V9 m ρ) c).arrAt_in 0 rfl _).trans (A_eq3 (V9 m ρ) c 0))
theorem W10_in1 (c : Dev nD) : W10 m ρ c (Proc.devRef .tc (Pipeline.arrRef spec3 1)) = W9 m ρ c (Proc.devRef .tc (Pipeline.arrRef spec3 1)) :=
  (W10_arr m ρ c 1).trans (((dat3 (V9 m ρ) c).arrAt_in 1 rfl _).trans (A_eq3 (V9 m ρ) c 1))
/-- After the host stretch `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
/-- After region 4: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- A region's input arrays leave it as they entered. -/
theorem W12_in0 (c : Dev nD) : W12 m ρ c (Proc.devRef .tc (Pipeline.arrRef spec4 0)) = W11 m ρ c (Proc.devRef .tc (Pipeline.arrRef spec4 0)) :=
  (W12_arr m ρ c 0).trans (((dat4 (V11 m ρ) c).arrAt_in 0 rfl _).trans (A_eq4 (V11 m ρ) c 0))
theorem W12_in1 (c : Dev nD) : W12 m ρ c (Proc.devRef .tc (Pipeline.arrRef spec4 1)) = W11 m ρ c (Proc.devRef .tc (Pipeline.arrRef spec4 1)) :=
  (W12_arr m ρ c 1).trans (((dat4 (V11 m ρ) c).arrAt_in 1 rfl _).trans (A_eq4 (V11 m ρ) c 1))
/-- After the host stretch `hostOps5`. -/
abbrev W13 : Dev nD → Valuation τ sig (Elt F) := fun c => StableHlo.after hostOps5 (W12 m ρ c)
abbrev V13 : (c : Dev nD) → (b : Ref sig .tc) → Buf (Elt F) ((c : Thread nD τ).loc b) := fun c b => W13 m ρ c b
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h
/-- After region 5: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- A region's input arrays leave it as they entered. -/
theorem W14_in0 (c : Dev nD) : W14 m ρ c (Proc.devRef .tc (Pipeline.arrRef spec5 0)) = W13 m ρ c (Proc.devRef .tc (Pipeline.arrRef spec5 0)) :=
  (W14_arr m ρ c 0).trans (((dat5 (V13 m ρ) c).arrAt_in 0 rfl _).trans (A_eq5 (V13 m ρ) c 0))
theorem W14_in1 (c : Dev nD) : W14 m ρ c (Proc.devRef .tc (Pipeline.arrRef spec5 1)) = W13 m ρ c (Proc.devRef .tc (Pipeline.arrRef spec5 1)) :=
  (W14_arr m ρ c 1).trans (((dat5 (V13 m ρ) c).arrAt_in 1 rfl _).trans (A_eq5 (V13 m ρ) c 1))
/-- After the host stretch `hostOps6`. -/
abbrev W15 : Dev nD → Valuation τ sig (Elt F) := fun c => StableHlo.after hostOps6 (W14 m ρ c)
abbrev V15 : (c : Dev nD) → (b : Ref sig .tc) → Buf (Elt F) ((c : Thread nD τ).loc b) := fun c b => W15 m ρ c b
theorem W15_of (c : Dev nD) (r : Ref sig .tc) (h : r ∉ hostOps6_W) : W15 m ρ c (Proc.devRef .tc r) = W14 m ρ c (Proc.devRef .tc r) :=
  StableHlo.after_of_writes_sub hostOps6 _ hostOps6_writes h

/-! ## No segment writes an argument -/
theorem W15_main_arg0 (c : Dev nD) : W15 m ρ c (Proc.devRef .tc main_arg0) = m ((c : Thread nD τ).loc main_arg0) :=
  (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_in0 m ρ c).trans <| (W3_of m ρ c main_arg0 (by decide)).trans <| (W2_of m ρ c main_arg0 (by decide)).trans <| (W1_of m ρ c main_arg0 (by decide)).trans rfl
theorem W15_main_arg1 (c : Dev nD) : W15 m ρ c (Proc.devRef .tc main_arg1) = m ((c : Thread nD τ).loc main_arg1) :=
  (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans rfl
theorem W15_main_arg2 (c : Dev nD) : W15 m ρ c (Proc.devRef .tc main_arg2) = m ((c : Thread nD τ).loc main_arg2) :=
  (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of m ρ c main_arg2 (by decide)).trans <| (W1_of m ρ c main_arg2 (by decide)).trans rfl
theorem W15_main_arg3 (c : Dev nD) : W15 m ρ c (Proc.devRef .tc main_arg3) = m ((c : Thread nD τ).loc main_arg3) :=
  (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans rfl
theorem W15_main_arg4 (c : Dev nD) : W15 m ρ c (Proc.devRef .tc main_arg4) = m ((c : Thread nD τ).loc main_arg4) :=
  (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_in1 m ρ c).trans <| (W3_of m ρ c main_arg4 (by decide)).trans <| (W2_of m ρ c main_arg4 (by decide)).trans <| (W1_of m ρ c main_arg4 (by decide)).trans rfl
theorem W15_main_arg5 (c : Dev nD) : W15 m ρ c (Proc.devRef .tc main_arg5) = m ((c : Thread nD τ).loc main_arg5) :=
  (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans rfl
theorem W15_main_arg6 (c : Dev nD) : W15 m ρ c (Proc.devRef .tc main_arg6) = m ((c : Thread nD τ).loc main_arg6) :=
  (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of_ne m ρ c main_arg6 (by decide)).trans <| (W9_of m ρ c main_arg6 (by decide)).trans <| (W8_in1 m ρ c).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans rfl
theorem W15_main_arg7 (c : Dev nD) : W15 m ρ c (Proc.devRef .tc main_arg7) = m ((c : Thread nD τ).loc main_arg7) :=
  (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans rfl
theorem W15_main_arg8 (c : Dev nD) : W15 m ρ c (Proc.devRef .tc main_arg8) = m ((c : Thread nD τ).loc main_arg8) :=
  (W15_of m ρ c main_arg8 (by decide)).trans <| (W14_of_ne m ρ c main_arg8 (by decide)).trans <| (W13_of m ρ c main_arg8 (by decide)).trans <| (W12_in1 m ρ c).trans <| (W11_of m ρ c main_arg8 (by decide)).trans <| (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of m ρ c main_arg8 (by decide)).trans <| (W1_of m ρ c main_arg8 (by decide)).trans rfl
theorem W15_main_arg9 (c : Dev nD) : W15 m ρ c (Proc.devRef .tc main_arg9) = m ((c : Thread nD τ).loc main_arg9) :=
  (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of_ne m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of m ρ c main_arg9 (by decide)).trans <| (W1_of m ρ c main_arg9 (by decide)).trans rfl

/-! ## The proof data of the six pipelines and the thread state between segments -/

abbrev adm : (p : Fin 6) → (pcfgs (F := F) p).Adm := fun p => (cfgs p).toPCfg_adm
/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every buffer that outlives a region at `W15`, the generator register at some state. -/
abbrev Tₙ (c : Dev nD) : sProp 𝕄 := iprop(StableHlo.held (c : Thread nD τ) (Pipeline.ucRefs τ sig) (W15 m ρ c) ∗ ∃ r, prngReg c r)

/-- The last segment's exit state regrouped: the buffers and the generator register on one side, the dues on the other. -/
theorem last_step (c : Dev nD) :
    iprop(StableHlo.held (c : Thread nD τ) (Pipeline.ucRefs τ sig) (W15 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0: entered with every outliving buffer at `W3`, left with them at `W4`. Its three arrays are split out of the
    buffers at entry and put back at the exit contents; the generator register goes into the pipeline's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every outliving buffer at `W5`, left with them at `W6`. Its three arrays are split out of the
    buffers at entry and put back at the exit contents; the generator register goes into the pipeline's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every outliving buffer at `W7`, left with them at `W8`. Its three arrays are split out of the
    buffers at entry and put back at the exit contents; the generator register goes into the pipeline's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every outliving buffer at `W9`, left with them at `W10`. Its three arrays are split out of the
    buffers at entry and put back at the exit contents; the generator register goes into the pipeline's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every outliving buffer at `W11`, left with them at `W12`. Its three arrays are split out of the
    buffers at entry and put back at the exit contents; the generator register goes into the pipeline's invariant and comes back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every outliving buffer at `W13`, left with them at `W14`. Its three arrays are split out of the
    buffers at entry and put back at the exit contents; the generator register goes into the pipeline's invariant and comes back. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its fifteen segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each buffer that outlives a region holds `W15`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The frame claim: the run, with each argument's buffer read back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c)⟩) (run_all m ρ)

end Cert.Kernel.Fr

end
-- ==== Proof.KIRegion0.lean ====
/-
  Region 0 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block when the body starts, whether or not a fetch happened at this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: it is fetched at the first point and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [2000,64] block, the one rectangle the body loads its rows through and stores its product through. -/
abbrev r0_0 : Rect S2000x64 := Rect.unit (s := S2000x64) ![0, 0] S2000x64.size inb_S2000x64_S2000x64_0_0
/-- The whole [64,64] matrix. -/
abbrev r0_1 : Rect S64x64 := Rect.unit (s := S64x64) ![0, 0] S64x64.size inb_S64x64_S64x64_0_0

/-- What the body leaves in the result's staging buffer: its one store, of the product of the two loaded blocks. -/
def out0_2 (x0 : Vec F S2000x64 .f32) (x1 : Vec F S64x64 .f32) : Vec F S2000x64 .f32 :=
  View.canon [⟨r0_0, k0_pay1 (View.ld x0 r0_0) (View.ld x1 r0_1)⟩]

/-- That one store covers the buffer. -/
theorem cover0_2 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

set_option maxHeartbeats 1000000 in
/-- The body run on whole staging buffers: the two inputs at `x0`, `x1` and the result's at anything; it ends with the
    inputs as they were and the result's buffer at `out0_2 x0 x1`. -/
theorem sound_kernel0 (c : Dev nD) (E : Set ℕ) (i : grid0.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: its arrays as the region finds them; after the body at a point each input's
    buffer still at its block and the result's at `out0_2` of the two input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1.lean ====
/-
  Region 1 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block when the body starts, whether or not a fetch happened at this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole row at every point: it is fetched at the first point and its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [2000,64] block, the one rectangle the body loads its rows through and stores its result through. -/
abbrev r1_0 : Rect S2000x64 := Rect.unit (s := S2000x64) ![0, 0] S2000x64.size inb_S2000x64_S2000x64_0_0
/-- The whole [1,64] row. -/
abbrev r1_1 : Rect S1x64 := Rect.unit (s := S1x64) ![0, 0] S1x64.size inb_S1x64_S1x64_0_0

/-- What the body leaves in the result's staging buffer: its one store, of the logistic function of the rows plus the bias row. -/
def out1_2 (x0 : Vec F S2000x64 .f32) (x1 : Vec F S1x64 .f32) : Vec F S2000x64 .f32 :=
  View.canon [⟨r1_0, k1_pay1 (View.ld x0 r1_0) (View.ld x1 r1_1)⟩]

/-- That one store covers the buffer. -/
theorem cover1_2 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 1000000 in
/-- The body run on whole staging buffers: the two inputs at `x0`, `x1` and the result's at anything; it ends with the
    inputs as they were and the result's buffer at `out1_2 x0 x1`. -/
theorem sound_kernel1 (c : Dev nD) (E : Set ℕ) (i : grid1.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_sigmoid_kernel i arg1 harg1 arg2 harg2 arg3 harg3) K := by
  simp only [cc1__bias_sigmoid_kernel_eq_skeleton]; unfold cc1__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: its arrays as the region finds them; after the body at a point each input's
    buffer still at its block and the result's at `out1_2` of the two input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegion2.lean ====
/-
  Region 2 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the point's block when the body starts, whether or not a fetch happened at this point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point: it is fetched at the first point and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [2000,64] block, the one rectangle the body loads its rows through and stores its product through. -/
abbrev r2_0 : Rect S2000x64 := Rect.unit (s := S2000x64) ![0, 0] S2000x64.size inb_S2000x64_S2000x64_0_0
/-- The whole [64,64] matrix. -/
abbrev r2_1 : Rect S64x64 := Rect.unit (s := S64x64) ![0, 0] S64x64.size inb_S64x64_S64x64_0_0

/-- What the body leaves in the result's staging buffer: its one store, of the product of the two loaded blocks. -/
def out2_2 (x0 : Vec F S2000x64 .f32) (x1 : Vec F S64x64 .f32) : Vec F S2000x64 .f32 :=
  View.canon [⟨r2_0, k2_pay1 (View.ld x0 r2_0) (View.ld x1 r2_1)⟩]

/-- That one store covers the buffer. -/
theorem cover2_2 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

set_option maxHeartbeats 1000000 in
/-- The body run on whole staging buffers: the two inputs at `x0`, `x1` and the result's at anything; it ends with the
    inputs as they were and the result's buffer at `out2_2 x0 x1`. -/
theorem sound_kernel2 (c : Dev nD) (E : Set ℕ) (i : grid2.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: its arrays as the region finds them; after the body at a point each input's
    buffer still at its block and the result's at `out2_2` of the two input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRegion3.lean ====
/-
  Region 3 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the point's block when the body starts, whether or not a fetch happened at this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the whole row at every point: it is fetched at the first point and its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole [2000,64] block, the one rectangle the body loads its rows through and stores its result through. -/
abbrev r3_0 : Rect S2000x64 := Rect.unit (s := S2000x64) ![0, 0] S2000x64.size inb_S2000x64_S2000x64_0_0
/-- The whole [1,64] row. -/
abbrev r3_1 : Rect S1x64 := Rect.unit (s := S1x64) ![0, 0] S1x64.size inb_S1x64_S1x64_0_0

/-- What the body leaves in the result's staging buffer: its one store, of the logistic function of the rows plus the bias row. -/
def out3_2 (x0 : Vec F S2000x64 .f32) (x1 : Vec F S1x64 .f32) : Vec F S2000x64 .f32 :=
  View.canon [⟨r3_0, k3_pay1 (View.ld x0 r3_0) (View.ld x1 r3_1)⟩]

/-- That one store covers the buffer. -/
theorem cover3_2 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body run on whole staging buffers: the two inputs at `x0`, `x1` and the result's at anything; it ends with the
    inputs as they were and the result's buffer at `out3_2 x0 x1`. -/
theorem sound_kernel3 (c : Dev nD) (E : Set ℕ) (i : grid3.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_sigmoid_kernel i arg1 harg1 arg2 harg2 arg3 harg3) K := by
  simp only [cc3__bias_sigmoid_kernel_eq_skeleton]; unfold cc3__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: its arrays as the region finds them; after the body at a point each input's
    buffer still at its block and the result's at `out3_2` of the two input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIRegion4.lean ====
/-
  Region 4 of the program's six: the projection `h · W` of one block of 2000 rows.
  The region reads a [2000,64] block of its first operand (the block index is the grid point), the whole [64,64]
  second operand (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the point's block when the body starts, whether or not a fetch happened at this point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point: it is fetched at the first point and its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole [2000,64] block, the one rectangle the body loads its rows through and stores its product through. -/
abbrev r4_0 : Rect S2000x64 := Rect.unit (s := S2000x64) ![0, 0] S2000x64.size inb_S2000x64_S2000x64_0_0
/-- The whole [64,64] matrix. -/
abbrev r4_1 : Rect S64x64 := Rect.unit (s := S64x64) ![0, 0] S64x64.size inb_S64x64_S64x64_0_0

/-- What the body leaves in the result's staging buffer: its one store, of the product of the two loaded blocks. -/
def out4_2 (x0 : Vec F S2000x64 .f32) (x1 : Vec F S64x64 .f32) : Vec F S2000x64 .f32 :=
  View.canon [⟨r4_0, k4_pay1 (View.ld x0 r4_0) (View.ld x1 r4_1)⟩]

/-- That one store covers the buffer. -/
theorem cover4_2 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

set_option maxHeartbeats 1000000 in
/-- The body run on whole staging buffers: the two inputs at `x0`, `x1` and the result's at anything; it ends with the
    inputs as they were and the result's buffer at `out4_2 x0 x1`. -/
theorem sound_kernel4 (c : Dev nD) (E : Set ℕ) (i : grid4.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this pipeline on core `c`: its arrays as the region finds them; after the body at a point each input's
    buffer still at its block and the result's at `out4_2` of the two input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIRegion5.lean ====
/-
  Region 5 of the program's six: `sigmoid (agg + b)` on one block of 2000 rows.
  The region reads a [2000,64] block of the aggregated messages (the block index is the grid point), the whole [1,64]
  bias row (one block, fetched once), and writes the [2000,64] block of the same index of its result.
  Stated at a parameter `V`, the contents of the core's buffers when the region is entered:
  what each window's block is at a grid point, what the body leaves in the result's staging buffer as a function
  of the two input blocks, the body's triple, and the pipeline's proof data with its body obligation.
-/
import proofs.«122437_j7121055776908_1_alg».proof.Proof.Gen.KernelIdeal.Launch
import proofs.«122437_j7121055776908_1_alg».proof.Proof.Gen.KernelIdeal.Skeleton
import proofs.«122437_j7121055776908_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array, as the region finds it, that the point's index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block's staging buffer holds the point's block when the body starts, whether or not a fetch happened at this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row's staging buffer holds the whole row at every point: it is fetched at the first point and its index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole [2000,64] block, the one rectangle the body loads its rows through and stores its result through. -/
abbrev r5_0 : Rect S2000x64 := Rect.unit (s := S2000x64) ![0, 0] S2000x64.size inb_S2000x64_S2000x64_0_0
/-- The whole [1,64] row. -/
abbrev r5_1 : Rect S1x64 := Rect.unit (s := S1x64) ![0, 0] S1x64.size inb_S1x64_S1x64_0_0

/-- What the body leaves in the result's staging buffer: its one store, of the logistic function of the rows plus the bias row. -/
def out5_2 (x0 : Vec F S2000x64 .f32) (x1 : Vec F S1x64 .f32) : Vec F S2000x64 .f32 :=
  View.canon [⟨r5_0, k5_pay1 (View.ld x0 r5_0) (View.ld x1 r5_1)⟩]

/-- That one store covers the buffer. -/
theorem cover5_2 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 1000000 in
/-- The body run on whole staging buffers: the two inputs at `x0`, `x1` and the result's at anything; it ends with the
    inputs as they were and the result's buffer at `out5_2 x0 x1`. -/
theorem sound_kernel5 (c : Dev nD) (E : Set ℕ) (i : grid5.Coords) (arg1 : Memref sig .tc .vmem S2000x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_sigmoid_kernel i arg1 harg1 arg2 harg2 arg3 harg3) K := by
  simp only [cc5__bias_sigmoid_kernel_eq_skeleton]; unfold cc5__bias_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of this pipeline on core `c`: its arrays as the region finds them; after the body at a point each input's
    buffer still at its block and the result's at `out5_2` of the two input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KIRun.lean ====
/-
  The run of @main, segment by segment: nine stretches of host operations and six kernel regions.
  `W j c` is what core `c`'s buffers hold after the j-th segment: the launch memory, then each host stretch's
  operations applied in order, and after a region its three arrays at what the pipeline's write-backs leave (the
  two inputs as entered, the result block by block) with every other buffer as entered.
  From the segments' records the run theorem: every weakly fair execution of @main terminates, faults nowhere, and
  ends with every buffer that outlives a region at `W 15`. The frame claim follows because no segment writes an argument.
-/
import proofs.«122437_j7121055776908_1_alg».proof.Proof.Gen.KernelIdeal.Regions
import proofs.«122437_j7121055776908_1_alg».proof.Proof.KIRegion0
import proofs.«122437_j7121055776908_1_alg».proof.Proof.KIRegion1
import proofs.«122437_j7121055776908_1_alg».proof.Proof.KIRegion2
import proofs.«122437_j7121055776908_1_alg».proof.Proof.KIRegion3
import proofs.«122437_j7121055776908_1_alg».proof.Proof.KIRegion4
import proofs.«122437_j7121055776908_1_alg».proof.Proof.KIRegion5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each segment -/

/-- At launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- A region's input arrays leave it as they entered. -/
theorem W4_in0 (c : Dev nD) : W4 m ρ c (Proc.devRef .tc (Pipeline.arrRef spec0 0)) = W3 m ρ c (Proc.devRef .tc (Pipeline.arrRef spec0 0)) :=
  (W4_arr m ρ c 0).trans (((dat0 (V3 m ρ) c).arrAt_in 0 rfl _).trans (A_eq0 (V3 m ρ) c 0))
theorem W4_in1 (c : Dev nD) : W4 m ρ c (Proc.devRef .tc (Pipeline.arrRef spec0 1)) = W3 m ρ c (Proc.devRef .tc (Pipeline.arrRef spec0 1)) :=
  (W4_arr m ρ c 1).trans (((dat0 (V3 m ρ) c).arrAt_in 1 rfl _).trans (A_eq0 (V3 m ρ) c 1))
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- A region's input arrays leave it as they entered. -/
theorem W6_in0 (c : Dev nD) : W6 m ρ c (Proc.devRef .tc (Pipeline.arrRef spec1 0)) = W5 m ρ c (Proc.devRef .tc (Pipeline.arrRef spec1 0)) :=
  (W6_arr m ρ c 0).trans (((dat1 (V5 m ρ) c).arrAt_in 0 rfl _).trans (A_eq1 (V5 m ρ) c 0))
theorem W6_in1 (c : Dev nD) : W6 m ρ c (Proc.devRef .tc (Pipeline.arrRef spec1 1)) = W5 m ρ c (Proc.devRef .tc (Pipeline.arrRef spec1 1)) :=
  (W6_arr m ρ c 1).trans (((dat1 (V5 m ρ) c).arrAt_in 1 rfl _).trans (A_eq1 (V5 m ρ) c 1))
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After region 2: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- A region's input arrays leave it as they entered. -/
theorem W8_in0 (c : Dev nD) : W8 m ρ c (Proc.devRef .tc (Pipeline.arrRef spec2 0)) = W7 m ρ c (Proc.devRef .tc (Pipeline.arrRef spec2 0)) :=
  (W8_arr m ρ c 0).trans (((dat2 (V7 m ρ) c).arrAt_in 0 rfl _).trans (A_eq2 (V7 m ρ) c 0))
theorem W8_in1 (c : Dev nD) : W8 m ρ c (Proc.devRef .tc (Pipeline.arrRef spec2 1)) = W7 m ρ c (Proc.devRef .tc (Pipeline.arrRef spec2 1)) :=
  (W8_arr m ρ c 1).trans (((dat2 (V7 m ρ) c).arrAt_in 1 rfl _).trans (A_eq2 (V7 m ρ) c 1))
/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- After region 3: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- A region's input arrays leave it as they entered. -/
theorem W10_in0 (c : Dev nD) : W10 m ρ c (Proc.devRef .tc (Pipeline.arrRef spec3 0)) = W9 m ρ c (Proc.devRef .tc (Pipeline.arrRef spec3 0)) :=
  (W10_arr m ρ c 0).trans (((dat3 (V9 m ρ) c).arrAt_in 0 rfl _).trans (A_eq3 (V9 m ρ) c 0))
theorem W10_in1 (c : Dev nD) : W10 m ρ c (Proc.devRef .tc (Pipeline.arrRef spec3 1)) = W9 m ρ c (Proc.devRef .tc (Pipeline.arrRef spec3 1)) :=
  (W10_arr m ρ c 1).trans (((dat3 (V9 m ρ) c).arrAt_in 1 rfl _).trans (A_eq3 (V9 m ρ) c 1))
/-- After the host stretch `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
/-- After region 4: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- A region's input arrays leave it as they entered. -/
theorem W12_in0 (c : Dev nD) : W12 m ρ c (Proc.devRef .tc (Pipeline.arrRef spec4 0)) = W11 m ρ c (Proc.devRef .tc (Pipeline.arrRef spec4 0)) :=
  (W12_arr m ρ c 0).trans (((dat4 (V11 m ρ) c).arrAt_in 0 rfl _).trans (A_eq4 (V11 m ρ) c 0))
theorem W12_in1 (c : Dev nD) : W12 m ρ c (Proc.devRef .tc (Pipeline.arrRef spec4 1)) = W11 m ρ c (Proc.devRef .tc (Pipeline.arrRef spec4 1)) :=
  (W12_arr m ρ c 1).trans (((dat4 (V11 m ρ) c).arrAt_in 1 rfl _).trans (A_eq4 (V11 m ρ) c 1))
/-- After the host stretch `hostOps5`. -/
abbrev W13 : Dev nD → Valuation τ sig (Elt F) := fun c => StableHlo.after hostOps5 (W12 m ρ c)
abbrev V13 : (c : Dev nD) → (b : Ref sig .tc) → Buf (Elt F) ((c : Thread nD τ).loc b) := fun c b => W13 m ρ c b
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h
/-- After region 5: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- A region's input arrays leave it as they entered. -/
theorem W14_in0 (c : Dev nD) : W14 m ρ c (Proc.devRef .tc (Pipeline.arrRef spec5 0)) = W13 m ρ c (Proc.devRef .tc (Pipeline.arrRef spec5 0)) :=
  (W14_arr m ρ c 0).trans (((dat5 (V13 m ρ) c).arrAt_in 0 rfl _).trans (A_eq5 (V13 m ρ) c 0))
theorem W14_in1 (c : Dev nD) : W14 m ρ c (Proc.devRef .tc (Pipeline.arrRef spec5 1)) = W13 m ρ c (Proc.devRef .tc (Pipeline.arrRef spec5 1)) :=
  (W14_arr m ρ c 1).trans (((dat5 (V13 m ρ) c).arrAt_in 1 rfl _).trans (A_eq5 (V13 m ρ) c 1))
/-- After the host stretch `hostOps6`. -/
abbrev W15 : Dev nD → Valuation τ sig (Elt F) := fun c => StableHlo.after hostOps6 (W14 m ρ c)
abbrev V15 : (c : Dev nD) → (b : Ref sig .tc) → Buf (Elt F) ((c : Thread nD τ).loc b) := fun c b => W15 m ρ c b
theorem W15_of (c : Dev nD) (r : Ref sig .tc) (h : r ∉ hostOps6_W) : W15 m ρ c (Proc.devRef .tc r) = W14 m ρ c (Proc.devRef .tc r) :=
  StableHlo.after_of_writes_sub hostOps6 _ hostOps6_writes h

/-! ## No segment writes an argument -/
theorem W15_main_arg0 (c : Dev nD) : W15 m ρ c (Proc.devRef .tc main_arg0) = m ((c : Thread nD τ).loc main_arg0) :=
  (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_in0 m ρ c).trans <| (W3_of m ρ c main_arg0 (by decide)).trans <| (W2_of m ρ c main_arg0 (by decide)).trans <| (W1_of m ρ c main_arg0 (by decide)).trans rfl
theorem W15_main_arg1 (c : Dev nD) : W15 m ρ c (Proc.devRef .tc main_arg1) = m ((c : Thread nD τ).loc main_arg1) :=
  (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans rfl
theorem W15_main_arg2 (c : Dev nD) : W15 m ρ c (Proc.devRef .tc main_arg2) = m ((c : Thread nD τ).loc main_arg2) :=
  (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of m ρ c main_arg2 (by decide)).trans <| (W1_of m ρ c main_arg2 (by decide)).trans rfl
theorem W15_main_arg3 (c : Dev nD) : W15 m ρ c (Proc.devRef .tc main_arg3) = m ((c : Thread nD τ).loc main_arg3) :=
  (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans rfl
theorem W15_main_arg4 (c : Dev nD) : W15 m ρ c (Proc.devRef .tc main_arg4) = m ((c : Thread nD τ).loc main_arg4) :=
  (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_in1 m ρ c).trans <| (W3_of m ρ c main_arg4 (by decide)).trans <| (W2_of m ρ c main_arg4 (by decide)).trans <| (W1_of m ρ c main_arg4 (by decide)).trans rfl
theorem W15_main_arg5 (c : Dev nD) : W15 m ρ c (Proc.devRef .tc main_arg5) = m ((c : Thread nD τ).loc main_arg5) :=
  (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans rfl
theorem W15_main_arg6 (c : Dev nD) : W15 m ρ c (Proc.devRef .tc main_arg6) = m ((c : Thread nD τ).loc main_arg6) :=
  (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of_ne m ρ c main_arg6 (by decide)).trans <| (W9_of m ρ c main_arg6 (by decide)).trans <| (W8_in1 m ρ c).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans rfl
theorem W15_main_arg7 (c : Dev nD) : W15 m ρ c (Proc.devRef .tc main_arg7) = m ((c : Thread nD τ).loc main_arg7) :=
  (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans rfl
theorem W15_main_arg8 (c : Dev nD) : W15 m ρ c (Proc.devRef .tc main_arg8) = m ((c : Thread nD τ).loc main_arg8) :=
  (W15_of m ρ c main_arg8 (by decide)).trans <| (W14_of_ne m ρ c main_arg8 (by decide)).trans <| (W13_of m ρ c main_arg8 (by decide)).trans <| (W12_in1 m ρ c).trans <| (W11_of m ρ c main_arg8 (by decide)).trans <| (W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of m ρ c main_arg8 (by decide)).trans <| (W1_of m ρ c main_arg8 (by decide)).trans rfl
theorem W15_main_arg9 (c : Dev nD) : W15 m ρ c (Proc.devRef .tc main_arg9) = m ((c : Thread nD τ).loc main_arg9) :=
  (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of_ne m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of m ρ c main_arg9 (by decide)).trans <| (W1_of m ρ c main_arg9 (by decide)).trans rfl

/-! ## The proof data of the six pipelines and the thread state between segments -/

abbrev adm : (p : Fin 6) → (pcfgs (F := F) p).Adm := fun p => (cfgs p).toPCfg_adm
/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V13 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every buffer that outlives a region at `W15`, the generator register at some state. -/
abbrev Tₙ (c : Dev nD) : sProp 𝕄 := iprop(StableHlo.held (c : Thread nD τ) (Pipeline.ucRefs τ sig) (W15 m ρ c) ∗ ∃ r, prngReg c r)

/-- The last segment's exit state regrouped: the buffers and the generator register on one side, the dues on the other. -/
theorem last_step (c : Dev nD) :
    iprop(StableHlo.held (c : Thread nD τ) (Pipeline.ucRefs τ sig) (W15 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0: entered with every outliving buffer at `W3`, left with them at `W4`. Its three arrays are split out of the
    buffers at entry and put back at the exit contents; the generator register goes into the pipeline's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every outliving buffer at `W5`, left with them at `W6`. Its three arrays are split out of the
    buffers at entry and put back at the exit contents; the generator register goes into the pipeline's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every outliving buffer at `W7`, left with them at `W8`. Its three arrays are split out of the
    buffers at entry and put back at the exit contents; the generator register goes into the pipeline's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every outliving buffer at `W9`, left with them at `W10`. Its three arrays are split out of the
    buffers at entry and put back at the exit contents; the generator register goes into the pipeline's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every outliving buffer at `W11`, left with them at `W12`. Its three arrays are split out of the
    buffers at entry and put back at the exit contents; the generator register goes into the pipeline's invariant and comes back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every outliving buffer at `W13`, left with them at `W14`. Its three arrays are split out of the
    buffers at entry and put back at the exit contents; the generator register goes into the pipeline's invariant and comes back. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its fifteen segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each buffer that outlives a region holds `W15`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The frame claim: the run, with each argument's buffer read back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c)⟩) (run_all m ρ)

end Cert.KernelIdeal.Fr

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KIValue0.lean ====
/-
  What region 0 leaves in its result array: the product of its two operand arrays, entry by entry.
  At a grid point `t` the body stores the product of rows `2000·t … 2000·t+1999` of the first operand with the whole
  second operand; entry `(p, q)` of that block is `∑ k, h[2000·t+p, k] · W[k, q]`, the entry `(2000·t+p, q)` of the
  product of the whole arrays. The 25 blocks tile the 50000 rows, so the array after the region is that product.
-/
import proofs.«122437_j7121055776908_1_alg».proof.Proof.KIRegion0
import proofs.«122437_j7121055776908_1_alg».proof.Proof.LibPlainDot
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Lib.PlainDot

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the product of its two loaded blocks (a change of float format is the identity here). -/
theorem pay0_eq (x0 : Vec Ideal S2000x64 .f32) (x1 : Vec Ideal S64x64 .f32) : k0_pay1 x0 x1 = rowsByCols x0 x1 := by
  unfold k0_pay1
  exact matmul_zero_eq dot_S2000x64_S64x64_S2000x64_1_0_0_1_n_n rfl none _ _

/-- The index maps over the grid: the row block and the result block are both block `t` of the rows, the matrix is block (0, 0). -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) ≤ 24 ∧ win0_2.index t (1 : Fin 2) = 0 :=
  (by decide +kernel : ∀ t : Fin grid0.N, _)

/-- Every block of rows is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

set_option maxHeartbeats 1600000 in
/-- What point `t` writes back is block `t` of the product of the two operand arrays as the region finds them. -/
theorem flushed0_eq (c : Dev nD) (t : Fin cfg0.N) :
    (dat0 V c).flushed 2 t = ((cfg0.win 2).blk t).view.read (Elt Ideal)
      (rowsByCols (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S2000x64) hz0, View.ld_unit_zero (S := S64x64) hz0]
  rw [pay0_eq]
  obtain ⟨e0, e1, e2, e3, e4, e5⟩ := idx_facts0 t
  funext j
  show rowsByCols (iblk0 V c 0 t) (iblk0 V c 1 t) j
    = rowsByCols (V c (Pipeline.arrRef spec0 0)) (V c (Pipeline.arrRef spec0 1)) (((cfg0.win 2).blk t).view.emb j)
  refine rowsByCols_congr _ _ _ _ j _ (fun k => ?_) (fun k => ?_)
  · show V c (Pipeline.arrRef spec0 0) (((cfg0.win 0).blk t).view.emb (ix2 (j 0) k)) = V c (Pipeline.arrRef spec0 0) (ix2 ((((cfg0.win 2).blk t).view.emb j) 0) k)
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  · show V c (Pipeline.arrRef spec0 1) (((cfg0.win 1).blk t).view.emb (ix2 k (j 1))) = V c (Pipeline.arrRef spec0 1) (ix2 k ((((cfg0.win 2).blk t).view.emb j) 1))
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the result array is in point `t`'s block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every entry of the result array is in the block of the point that holds its row. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the region: the product of the two operand arrays as the region found them. -/
theorem final0 (c : Dev nD) : (dat0 V c).arrAt 2 cfg0.N
    = rowsByCols (V c (Pipeline.arrRef spec0 0)) (V c (Pipeline.arrRef spec0 1)) :=
  (dat0 V c).arrAt_eq_of_cover 2 _ (fun t _ => flushed0_eq V c t) (cover0)

end Cert.KernelIdeal.Fr

end
-- ==== Proof.LibSigRows.lean ====
/-
  A squashed layer output `sigmoid (agg + b)` on the extended reals, and its two spellings.

  For an [n, c] array `agg` and a [1, c] row `b`, `sigRows agg b` is the array whose entry `(p, q)` is
  `logistic (agg[p,q] + b[0,q])`, where `logistic x = 1 / (1 + e^(-x))` with `logistic ⊥ = 0` and `logistic ⊤ = 1`
  (a kernel's `tpu.logistic` of a block plus a bias row broadcast over the block's rows reads so entry by entry).
  A host program that spreads the bias VECTOR over the rows ([c] → [1, c] → [n, c]), adds, and spells the logistic
  function out as `1 / (1 + exp (-x))` with the ones spread from a scalar computes the same array: on the extended
  reals `logistic x` IS `div 1 (1 + exp (-x))`, the f32 word 0x3F800000 is the real one, and both ways of placing the
  bias read `b[q]` (`sigRows_eq_spelt`, with the bias row given as the vector recast to [1, c]).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Sig

open Idealize.ShloMosaic Idealize.ShloMosaic.ValueIdx

/-- Entry `(p, q)` is `logistic (agg[p,q] + b[0,q])`. -/
def sigRows {n c : ℕ} (agg : (⟨2, ![n, c]⟩ : Shape).Idx → EReal) (b : (⟨2, ![1, c]⟩ : Shape).Idx → EReal) :
    (⟨2, ![n, c]⟩ : Shape).Idx → EReal :=
  fun i => Ideal.logistic (agg i + b (ix2 (0 : Fin 1) (i 1)))
/-- Spreading a vector over the rows of a matrix in two steps, [c] → [1, c] (dimension 1) → [n, c] (dimensions 0, 1),
    reads the vector at the column. -/
theorem spread_apply {n c : ℕ} (b : (⟨1, ![c]⟩ : Shape).Idx → EReal)
    (h1 : (⟨1, ![c]⟩ : Shape).BroadcastsInDim ⟨2, ![1, c]⟩ ![1])
    (h01 : (⟨2, ![1, c]⟩ : Shape).BroadcastsInDim ⟨2, ![n, c]⟩ ![0, 1]) (p : Fin n) (q : Fin c) :
    broadcastInDim ⟨2, ![n, c]⟩ ![0, 1] h01 (broadcastInDim ⟨2, ![1, c]⟩ ![1] h1 b) (ix2 p q) = b (ix1 q) := by
  rw [broadcastInDim_apply ![0, 1] h01 _ (ix2 p q) (ix2 (0 : Fin 1) q) (fun a => by
    match a with
    | ⟨0, _⟩ => rfl
    | ⟨1, _⟩ =>
      show q.val = if c = 1 then 0 else q.val
      split
      · have := q.isLt; omega
      · rfl)]
  exact broadcastInDim_apply ![1] h1 b (ix2 (0 : Fin 1) q) (ix1 q) (fun a => by
    match a with
    | ⟨0, _⟩ =>
      show q.val = if c = 1 then 0 else q.val
      split
      · have := q.isLt; omega
      · rfl)

/-- The squashed output with the bias recast as a row is the spelt-out `1 / (1 + exp (-(agg + spread b)))`. -/
theorem sigRows_eq_spelt {n c : ℕ} (agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ ![1])
    (h01 : (⟨2, ![1, c]⟩ : Shape).BroadcastsInDim ⟨2, ![n, c]⟩ ![0, 1])
    (hs : (⟨0, ![]⟩ : Shape).BroadcastsInDim ⟨2, ![n, c]⟩ ![]) :
    sigRows agg (shapeCast ⟨2, ![1, c]⟩ b hc)
      = Host.divf (F := Ideal) (φ := .f32) (broadcastInDim ⟨2, ![n, c]⟩ ![] hs (constant (F := Ideal) ⟨0, ![]⟩ .f32 0x3F800000#32))
          (addf (broadcastInDim ⟨2, ![n, c]⟩ ![] hs (constant (F := Ideal) ⟨0, ![]⟩ .f32 0x3F800000#32))
            (Host.exp (Host.negf (addf agg (broadcastInDim ⟨2, ![n, c]⟩ ![0, 1] h01 (broadcastInDim ⟨2, ![1, c]⟩ ![1] h1 b)))))) := by
  funext i
  obtain ⟨p, q, rfl⟩ : ∃ (p : Fin n) (q : Fin c), i = ix2 p q := ⟨i 0, i 1, eq_ix2 i⟩
  unfold sigRows
  show Ideal.logistic (agg (ix2 p q) + shapeCast ⟨2, ![1, c]⟩ b hc (ix2 (0 : Fin 1) q))
    = Ideal.div (broadcastInDim ⟨2, ![n, c]⟩ ![] hs (constant (F := Ideal) ⟨0, ![]⟩ .f32 0x3F800000#32) (ix2 p q))
        (broadcastInDim ⟨2, ![n, c]⟩ ![] hs (constant (F := Ideal) ⟨0, ![]⟩ .f32 0x3F800000#32) (ix2 p q)
          + Ideal.exp (-(agg (ix2 p q) + broadcastInDim ⟨2, ![n, c]⟩ ![0, 1] h01 (broadcastInDim ⟨2, ![1, c]⟩ ![1] h1 b) (ix2 p q))))
  rw [broadcastInDim_scalar_apply, constant_apply, Ideal.ofBits_one_f32, spread_apply, shapeCast_a_1a_apply]
  rfl

end Cert.Sig

end
-- ==== Proof.KIValue1.lean ====
/-
  What region 1 leaves in its result array: `sigmoid (agg + b)`, entry by entry.
  At a grid point `t` the body stores the logistic function of rows `2000·t … 2000·t+1999` of the aggregated messages,
  each added to the one bias row; entry `(p, q)` of that block is `logistic (agg[2000·t+p, q] + b[0, q])`.
  The 25 blocks tile the 50000 rows, so the array after the region is `sigRows agg b`.
-/
import proofs.«122437_j7121055776908_1_alg».proof.Proof.KIRegion1
import proofs.«122437_j7121055776908_1_alg».proof.Proof.LibSigRows
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Sig

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at `(p, q)`: the logistic function of the loaded row entry plus the bias row's entry of that column. -/
theorem pay1_apply (x0 : Vec Ideal S2000x64 .f32) (x1 : Vec Ideal S1x64 .f32) (p : Fin 2000) (q : Fin 64) :
    k1_pay1 x0 x1 (ix2 p q) = Ideal.logistic (x0 (ix2 p q) + x1 (ix2 (0 : Fin 1) q)) := by
  unfold k1_pay1
  show Ideal.logistic (shapeCast S2000x64 x0 shapeCasts_S2000x64_S2000x64 (ix2 p q)
    + broadcastTo S2000x64 (shapeCast S1x64 x1 shapeCasts_S1x64_S1x64) broadcasts_S1x64_S2000x64 (ix2 p q)) = _
  rw [shapeCast_self, shapeCast_self, broadcastTo_1b_ab_apply]

/-- The index maps over the grid: the row block and the result block are both block `t` of the rows, the bias row is block (0, 0). -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) ≤ 24 ∧ win1_2.index t (1 : Fin 2) = 0 :=
  (by decide +kernel : ∀ t : Fin grid1.N, _)

/-- Every block of rows is some point's. -/
theorem idx_onto1 : ∀ q0 : Fin 25, ∃ t : Fin cfg1.N, win1_2.index t = ![q0.val, 0] :=
  (by decide +kernel : ∀ q0 : Fin 25, ∃ t : Fin grid1.N, win1_2.index t = ![q0.val, 0])

set_option maxHeartbeats 1600000 in
/-- What point `t` writes back is block `t` of `sigRows` of the two operand arrays as the region finds them. -/
theorem flushed1_eq (c : Dev nD) (t : Fin cfg1.N) :
    (dat1 V c).flushed 2 t = ((cfg1.win 2).blk t).view.read (Elt Ideal)
      (sigRows (V c (Pipeline.arrRef spec1 0)) (V c (Pipeline.arrRef spec1 1))) := by
  show (cfg1.win 2).cut (grid1.coords t) ((dat1 V c).after 2 t) = _
  rw [after1_2]
  unfold out1_2
  rw [View.canon_unit_zero hz1]
  simp only [View.ld_unit_zero (S := S2000x64) hz1, View.ld_unit_zero (S := S1x64) hz1]
  obtain ⟨e0, e1, e2, e3, e4, e5⟩ := idx_facts1 t
  funext j
  obtain ⟨p, q, rfl⟩ : ∃ (p : Fin 2000) (q : Fin 64), j = ix2 p q := ⟨j 0, j 1, eq_ix2 j⟩
  show k1_pay1 (iblk1 V c 0 t) (iblk1 V c 1 t) (ix2 p q)
    = sigRows (V c (Pipeline.arrRef spec1 0)) (V c (Pipeline.arrRef spec1 1)) (((cfg1.win 2).blk t).view.emb (ix2 p q))
  rw [pay1_apply]
  unfold sigRows
  refine congrArg Ideal.logistic (congrArg₂ (· + ·) ?_ ?_)
  · show V c (Pipeline.arrRef spec1 0) (((cfg1.win 0).blk t).view.emb (ix2 p q)) = V c (Pipeline.arrRef spec1 0) (((cfg1.win 2).blk t).view.emb (ix2 p q))
    refine congrArg _ (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  · show V c (Pipeline.arrRef spec1 1) (((cfg1.win 1).blk t).view.emb (ix2 (0 : Fin 1) q)) = V c (Pipeline.arrRef spec1 1) (ix2 (0 : Fin 1) ((((cfg1.win 2).blk t).view.emb (ix2 p q)) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

/-- An index of the result array is in point `t`'s block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v45).slice (win1_2.rect t)).set ↔ _
  rw [View.set_slice_whole, Rect.mem_set_unit]
  exact Iff.rfl

/-- Every entry of the result array is in the block of the point that holds its row. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The result array after the region: `sigRows` of the two operand arrays as the region found them. -/
theorem final1 (c : Dev nD) : (dat1 V c).arrAt 2 cfg1.N
    = sigRows (V c (Pipeline.arrRef spec1 0)) (V c (Pipeline.arrRef spec1 1)) :=
  (dat1 V c).arrAt_eq_of_cover 2 _ (fun t _ => flushed1_eq V c t) (cover1)

end Cert.KernelIdeal.Fr

end
-- ==== Proof.KIValue2.lean ====
/-
  What region 2 leaves in its result array: the product of its two operand arrays, entry by entry.
  At a grid point `t` the body stores the product of rows `2000·t … 2000·t+1999` of the first operand with the whole
  second operand; entry `(p, q)` of that block is `∑ k, h[2000·t+p, k] · W[k, q]`, the entry `(2000·t+p, q)` of the
  product of the whole arrays. The 25 blocks tile the 50000 rows, so the array after the region is that product.
-/
import proofs.«122437_j7121055776908_1_alg».proof.Proof.KIRegion2
import proofs.«122437_j7121055776908_1_alg».proof.Proof.LibPlainDot
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Lib.PlainDot

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the product of its two loaded blocks (a change of float format is the identity here). -/
theorem pay2_eq (x0 : Vec Ideal S2000x64 .f32) (x1 : Vec Ideal S64x64 .f32) : k2_pay1 x0 x1 = rowsByCols x0 x1 := by
  unfold k2_pay1
  refine (matmul_zero_eq dot_S2000x64_S64x64_S2000x64_1_0_0_1_n_n rfl none _ _).trans ?_
  show rowsByCols (shapeCast S2000x64 x0 shapeCasts_S2000x64_S2000x64) x1 = _
  rw [shapeCast_self]

/-- The index maps over the grid: the row block and the result block are both block `t` of the rows, the matrix is block (0, 0). -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) ≤ 24 ∧ win2_2.index t (1 : Fin 2) = 0 :=
  (by decide +kernel : ∀ t : Fin grid2.N, _)

/-- Every block of rows is some point's. -/
theorem idx_onto2 : ∀ q0 : Fin 25, ∃ t : Fin cfg2.N, win2_2.index t = ![q0.val, 0] :=
  (by decide +kernel : ∀ q0 : Fin 25, ∃ t : Fin grid2.N, win2_2.index t = ![q0.val, 0])

set_option maxHeartbeats 1600000 in
/-- What point `t` writes back is block `t` of the product of the two operand arrays as the region finds them. -/
theorem flushed2_eq (c : Dev nD) (t : Fin cfg2.N) :
    (dat2 V c).flushed 2 t = ((cfg2.win 2).blk t).view.read (Elt Ideal)
      (rowsByCols (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S2000x64) hz2, View.ld_unit_zero (S := S64x64) hz2]
  rw [pay2_eq]
  obtain ⟨e0, e1, e2, e3, e4, e5⟩ := idx_facts2 t
  funext j
  show rowsByCols (iblk2 V c 0 t) (iblk2 V c 1 t) j
    = rowsByCols (V c (Pipeline.arrRef spec2 0)) (V c (Pipeline.arrRef spec2 1)) (((cfg2.win 2).blk t).view.emb j)
  refine rowsByCols_congr _ _ _ _ j _ (fun k => ?_) (fun k => ?_)
  · show V c (Pipeline.arrRef spec2 0) (((cfg2.win 0).blk t).view.emb (ix2 (j 0) k)) = V c (Pipeline.arrRef spec2 0) (ix2 ((((cfg2.win 2).blk t).view.emb j) 0) k)
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  · show V c (Pipeline.arrRef spec2 1) (((cfg2.win 1).blk t).view.emb (ix2 k (j 1))) = V c (Pipeline.arrRef spec2 1) (ix2 k ((((cfg2.win 2).blk t).view.emb j) 1))
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the result array is in point `t`'s block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v53).slice (win2_2.rect t)).set ↔ _
  rw [View.set_slice_whole, Rect.mem_set_unit]
  exact Iff.rfl

/-- Every entry of the result array is in the block of the point that holds its row. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the region: the product of the two operand arrays as the region found them. -/
theorem final2 (c : Dev nD) : (dat2 V c).arrAt 2 cfg2.N
    = rowsByCols (V c (Pipeline.arrRef spec2 0)) (V c (Pipeline.arrRef spec2 1)) :=
  (dat2 V c).arrAt_eq_of_cover 2 _ (fun t _ => flushed2_eq V c t) (cover2)

end Cert.KernelIdeal.Fr

end
-- ==== Proof.KIValue3.lean ====
/-
  What region 3 leaves in its result array: `sigmoid (agg + b)`, entry by entry.
  At a grid point `t` the body stores the logistic function of rows `2000·t … 2000·t+1999` of the aggregated messages,
  each added to the one bias row; entry `(p, q)` of that block is `logistic (agg[2000·t+p, q] + b[0, q])`.
  The 25 blocks tile the 50000 rows, so the array after the region is `sigRows agg b`.
-/
import proofs.«122437_j7121055776908_1_alg».proof.Proof.KIRegion3
import proofs.«122437_j7121055776908_1_alg».proof.Proof.LibSigRows
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Sig

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at `(p, q)`: the logistic function of the loaded row entry plus the bias row's entry of that column. -/
theorem pay3_apply (x0 : Vec Ideal S2000x64 .f32) (x1 : Vec Ideal S1x64 .f32) (p : Fin 2000) (q : Fin 64) :
    k3_pay1 x0 x1 (ix2 p q) = Ideal.logistic (x0 (ix2 p q) + x1 (ix2 (0 : Fin 1) q)) := by
  unfold k3_pay1
  show Ideal.logistic (shapeCast S2000x64 x0 shapeCasts_S2000x64_S2000x64 (ix2 p q)
    + broadcastTo S2000x64 (shapeCast S1x64 x1 shapeCasts_S1x64_S1x64) broadcasts_S1x64_S2000x64 (ix2 p q)) = _
  rw [shapeCast_self, shapeCast_self, broadcastTo_1b_ab_apply]

/-- The index maps over the grid: the row block and the result block are both block `t` of the rows, the bias row is block (0, 0). -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (0 : Fin 2) ≤ 24 ∧ win3_2.index t (1 : Fin 2) = 0 :=
  (by decide +kernel : ∀ t : Fin grid3.N, _)

/-- Every block of rows is some point's. -/
theorem idx_onto3 : ∀ q0 : Fin 25, ∃ t : Fin cfg3.N, win3_2.index t = ![q0.val, 0] :=
  (by decide +kernel : ∀ q0 : Fin 25, ∃ t : Fin grid3.N, win3_2.index t = ![q0.val, 0])

set_option maxHeartbeats 1600000 in
/-- What point `t` writes back is block `t` of `sigRows` of the two operand arrays as the region finds them. -/
theorem flushed3_eq (c : Dev nD) (t : Fin cfg3.N) :
    (dat3 V c).flushed 2 t = ((cfg3.win 2).blk t).view.read (Elt Ideal)
      (sigRows (V c (Pipeline.arrRef spec3 0)) (V c (Pipeline.arrRef spec3 1))) := by
  show (cfg3.win 2).cut (grid3.coords t) ((dat3 V c).after 2 t) = _
  rw [after3_2]
  unfold out3_2
  rw [View.canon_unit_zero hz3]
  simp only [View.ld_unit_zero (S := S2000x64) hz3, View.ld_unit_zero (S := S1x64) hz3]
  obtain ⟨e0, e1, e2, e3, e4, e5⟩ := idx_facts3 t
  funext j
  obtain ⟨p, q, rfl⟩ : ∃ (p : Fin 2000) (q : Fin 64), j = ix2 p q := ⟨j 0, j 1, eq_ix2 j⟩
  show k3_pay1 (iblk3 V c 0 t) (iblk3 V c 1 t) (ix2 p q)
    = sigRows (V c (Pipeline.arrRef spec3 0)) (V c (Pipeline.arrRef spec3 1)) (((cfg3.win 2).blk t).view.emb (ix2 p q))
  rw [pay3_apply]
  unfold sigRows
  refine congrArg Ideal.logistic (congrArg₂ (· + ·) ?_ ?_)
  · show V c (Pipeline.arrRef spec3 0) (((cfg3.win 0).blk t).view.emb (ix2 p q)) = V c (Pipeline.arrRef spec3 0) (((cfg3.win 2).blk t).view.emb (ix2 p q))
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  · show V c (Pipeline.arrRef spec3 1) (((cfg3.win 1).blk t).view.emb (ix2 (0 : Fin 1) q)) = V c (Pipeline.arrRef spec3 1) (ix2 (0 : Fin 1) ((((cfg3.win 2).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega

/-- An index of the result array is in point `t`'s block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v68).slice (win3_2.rect t)).set ↔ _
  rw [View.set_slice_whole, Rect.mem_set_unit]
  exact Iff.rfl

/-- Every entry of the result array is in the block of the point that holds its row. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The result array after the region: `sigRows` of the two operand arrays as the region found them. -/
theorem final3 (c : Dev nD) : (dat3 V c).arrAt 2 cfg3.N
    = sigRows (V c (Pipeline.arrRef spec3 0)) (V c (Pipeline.arrRef spec3 1)) :=
  (dat3 V c).arrAt_eq_of_cover 2 _ (fun t _ => flushed3_eq V c t) (cover3)

end Cert.KernelIdeal.Fr

end
-- ==== Proof.KIValue4.lean ====
/-
  What region 4 leaves in its result array: the product of its two operand arrays, entry by entry.
  At a grid point `t` the body stores the product of rows `2000·t … 2000·t+1999` of the first operand with the whole
  second operand; entry `(p, q)` of that block is `∑ k, h[2000·t+p, k] · W[k, q]`, the entry `(2000·t+p, q)` of the
  product of the whole arrays. The 25 blocks tile the 50000 rows, so the array after the region is that product.
-/
import proofs.«122437_j7121055776908_1_alg».proof.Proof.KIRegion4
import proofs.«122437_j7121055776908_1_alg».proof.Proof.LibPlainDot
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Lib.PlainDot

variable (V : (c : Dev nD) → (b : Ref sig .tc) → Buf (Elt Ideal) ((c : Thread nD τ).loc b))

theorem hz4 : (![0, 0] : Fin 2 → Nat) = fun _ => 0 := funext fun a => by fin_cases a <;> rfl

/-- The body's stored value is the product of its two loaded blocks (a change of float format is the identity here). -/
theorem pay4_eq (x0 : Vec Ideal S2000x64 .f32) (x1 : Vec Ideal S64x64 .f32) : k4_pay1 x0 x1 = rowsByCols x0 x1 := by
  unfold k4_pay1
  refine (matmul_zero_eq dot_S2000x64_S64x64_S2000x64_1_0_0_1_n_n rfl none _ _).trans ?_
  show rowsByCols (shapeCast S2000x64 x0 shapeCasts_S2000x64_S2000x64) x1 = _
  rw [shapeCast_self]

/-- The index maps over the grid: the row block and the result block are both block `t` of the rows, the matrix is block (0, 0). -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (0 : Fin 2) ≤ 24 ∧ win4_2.index t (1 : Fin 2) = 0 :=
  (by decide +kernel : ∀ t : Fin grid4.N, _)

/-- Every block of rows is some point's. -/
theorem idx_onto4 : ∀ q0 : Fin 25, ∃ t : Fin cfg4.N, win4_2.index t = ![q0.val, 0] :=
  (by decide +kernel : ∀ q0 : Fin 25, ∃ t : Fin grid4.N, win4_2.index t = ![q0.val, 0])

set_option maxHeartbeats 1600000 in
/-- What point `t` writes back is block `t` of the product of the two operand arrays as the region finds them. -/
theorem flushed4_eq (c : Dev nD) (t : Fin cfg4.N) :
    (dat4 V c).flushed 2 t = ((cfg4.win 2).blk t).view.read (Elt Ideal)
      (rowsByCols (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S2000x64) hz4, View.ld_unit_zero (S := S64x64) hz4]
  rw [pay4_eq]
  obtain ⟨e0, e1, e2, e3, e4, e5⟩ := idx_facts4 t
  funext j
  show rowsByCols (iblk4 V c 0 t) (iblk4 V c 1 t) j
    = rowsByCols (V c (Pipeline.arrRef spec4 0)) (V c (Pipeline.arrRef spec4 1)) (((cfg4.win 2).blk t).view.emb j)
  refine rowsByCols_congr _ _ _ _ j _ (fun k => ?_) (fun k => ?_)
  · show V c (Pipeline.arrRef spec4 0) (((cfg4.win 0).blk t).view.emb (ix2 (j 0) k)) = V c (Pipeline.arrRef spec4 0) (ix2 ((((cfg4.win 2).blk t).view.emb j) 0) k)
    refine congrArg _ (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · show V c (Pipeline.arrRef spec4 1) (((cfg4.win 1).blk t).view.emb (ix2 k (j 1))) = V c (Pipeline.arrRef spec4 1) (ix2 k ((((cfg4.win 2).blk t).view.emb j) 1))
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the result array is in point `t`'s block iff each coordinate is in the block's range on its axis. -/
theorem mem_blk4 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v76).slice (win4_2.rect t)).set ↔ _
  rw [View.set_slice_whole, Rect.mem_set_unit]
  exact Iff.rfl

/-- Every entry of the result array is in the block of the point that holds its row. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The result array after the region: the product of the two operand arrays as the region found them. -/
theorem final4 (c : Dev nD) : (dat4 V c).arrAt 2 cfg4.N
    = rowsByCols (V c (Pipeline.arrRef spec4 0)) (V c (Pipeline.arrRef spec4 1)) :=
  (dat4 V c).arrAt_eq_of_cover 2 _ (fun t _ => flushed4_eq V c t) (cover4)

end Cert.KernelIdeal.Fr

end
-- ==== Proof.KIValue5.lean ====
/-
  What region 5 leaves in its result array: `sigmoid (agg + b)`, entry by entry.
  At a grid point `t` the body stores the logistic function of rows `2000·t … 2000·t+1999` of the aggregated messages,
  each added to the one bias row; entry `(p, q)` of that block is `logistic (agg[2000·t+p, q] + b[0, q])`.
  The 25 blocks tile the 50000 rows, so the array after the region is `sigRows agg b`.
-/
import proofs.«122437_j7121055776908_1_alg».proof.Proof.KIRegion5
import proofs.«122437_j7121055776908_1_alg».proof.Proof.LibSigRows
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Sig

variable (V : (c : Dev nD) → (b : Ref sig .tc) → Buf (Elt Ideal) ((c : Thread nD τ).loc b))

theorem hz5 : (![0, 0] : Fin 2 → Nat) = fun _ => 0 := funext fun a => by fin_cases a <;> rfl

/-- The body's stored value at `(p, q)`: the logistic function of the loaded row entry plus the bias row's entry of that column. -/
theorem pay5_apply (x0 : Vec Ideal S2000x64 .f32) (x1 : Vec Ideal S1x64 .f32) (p : Fin 2000) (q : Fin 64) :
    k5_pay1 x0 x1 (ix2 p q) = Ideal.logistic (x0 (ix2 p q) + x1 (ix2 (0 : Fin 1) q)) := by
  unfold k5_pay1
  show Ideal.logistic (shapeCast S2000x64 x0 shapeCasts_S2000x64_S2000x64 (ix2 p q)
    + broadcastTo S2000x64 (shapeCast S1x64 x1 shapeCasts_S1x64_S1x64) broadcasts_S1x64_S2000x64 (ix2 p q)) = _
  rw [shapeCast_self, shapeCast_self, broadcastTo_1b_ab_apply]

/-- The index maps over the grid: the row block and the result block are both block `t` of the rows, the bias row is block (0, 0). -/
theorem idx_facts5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (0 : Fin 2) ≤ 24 ∧ win5_2.index t (1 : Fin 2) = 0 :=
  (by decide +kernel : ∀ t : Fin grid5.N, _)

/-- Every block of rows is some point's. -/
theorem idx_onto5 : ∀ q0 : Fin 25, ∃ t : Fin cfg5.N, win5_2.index t = ![q0.val, 0] :=
  (by decide +kernel : ∀ q0 : Fin 25, ∃ t : Fin grid5.N, win5_2.index t = ![q0.val, 0])

set_option maxHeartbeats 1600000 in
/-- What point `t` writes back is block `t` of `sigRows` of the two operand arrays as the region finds them. -/
theorem flushed5_eq (c : Dev nD) (t : Fin cfg5.N) :
    (dat5 V c).flushed 2 t = ((cfg5.win 2).blk t).view.read (Elt Ideal)
      (sigRows (V c (Pipeline.arrRef spec5 0)) (V c (Pipeline.arrRef spec5 1))) := by
  show (cfg5.win 2).cut (grid5.coords t) ((dat5 V c).after 2 t) = _
  rw [after5_2]
  unfold out5_2
  rw [View.canon_unit_zero hz5]
  simp only [View.ld_unit_zero (S := S2000x64) hz5, View.ld_unit_zero (S := S1x64) hz5]
  obtain ⟨e0, e1, e2, e3, e4, e5⟩ := idx_facts5 t
  funext j
  obtain ⟨p, q, rfl⟩ : ∃ (p : Fin 2000) (q : Fin 64), j = ix2 p q := ⟨j 0, j 1, eq_ix2 j⟩
  show k5_pay1 (iblk5 V c 0 t) (iblk5 V c 1 t) (ix2 p q)
    = sigRows (V c (Pipeline.arrRef spec5 0)) (V c (Pipeline.arrRef spec5 1)) (((cfg5.win 2).blk t).view.emb (ix2 p q))
  rw [pay5_apply]
  unfold sigRows
  refine congrArg Ideal.logistic (congrArg₂ (· + ·) ?_ ?_)
  · show V c (Pipeline.arrRef spec5 0) (((cfg5.win 0).blk t).view.emb (ix2 p q)) = V c (Pipeline.arrRef spec5 0) (((cfg5.win 2).blk t).view.emb (ix2 p q))
    refine congrArg _ (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 64 + 1 * q.val = win5_2.index t (1 : Fin 2) * 64 + 1 * q.val; omega
  · show V c (Pipeline.arrRef spec5 1) (((cfg5.win 1).blk t).view.emb (ix2 (0 : Fin 1) q)) = V c (Pipeline.arrRef spec5 1) (ix2 (0 : Fin 1) ((((cfg5.win 2).blk t).view.emb (ix2 p q)) 1))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega

/-- An index of the result array is in point `t`'s block iff each coordinate is in the block's range on its axis. -/
theorem mem_blk5 (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v91).slice (win5_2.rect t)).set ↔ _
  rw [View.set_slice_whole, Rect.mem_set_unit]
  exact Iff.rfl

/-- Every entry of the result array is in the block of the point that holds its row. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- The result array after the region: `sigRows` of the two operand arrays as the region found them. -/
theorem final5 (c : Dev nD) : (dat5 V c).arrAt 2 cfg5.N
    = sigRows (V c (Pipeline.arrRef spec5 0)) (V c (Pipeline.arrRef spec5 1)) :=
  (dat5 V c).arrAt_eq_of_cover 2 _ (fun t _ => flushed5_eq V c t) (cover5)

end Cert.KernelIdeal.Fr

end
-- ==== Proof.LibNaryThree.lean ====
/-
  An operation on a family of THREE buffers, read with each operand at its own buffer.

  A host operation that takes its operands through a family indexed by position (a join of several arrays along
  an axis) has as its value the operation's function applied to the family `k ↦ contents of operand k`. For a
  family of three given as a literal, that family is the three operands' contents one after the other. Stated
  with the function applied LAST (`feed x f = f x`, kept folded), a rewriting pass can go on reading each
  operand's own contents below the join before the join's function is opened — which it cannot do once the
  function is applied, when the function (a concatenation) carries a proof about the shapes of what it joins.
-/
import Idealize.ShloMosaic.Lib.StableHlo.Run

noncomputable section

namespace Cert.LibNaryThree

open Idealize.ShloMosaic Idealize.ShloMosaic.TcCoe Idealize.ShloMosaic.StableHlo

/-- A value handed to a function: `feed x f` is `f x`, kept folded so that `x` can be rewritten first.
    Unfold it (or close by `rfl`) once the operands have been read. -/
def feed {α β : Type} (x : α) (f : α → β) : β := f x

variable {τ : Topo} {sig : RefSig} {Val : EltTy → Type} {x a b y : Ref sig .tc}

/-- **An operation on a literal family of three buffers**: its result buffer after the operation holds the
    operation's function of the three operands' contents, each read at its own buffer (the three-operand
    companion of the four-operand form; the result buffer is un-indexed so that a simplifier finds the
    lemma from the operation alone). Use it in a `simp only` set with the other result lemmas in place of the
    generic family form, then close with `rfl`. -/
theorem nary3_feed
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = feed (Fin.cons (F (Proc.devRef .tc x)) (Fin.cons (F (Proc.devRef .tc a)) (Fin.cons (F (Proc.devRef .tc b)) (fun i => i.elim0)))) f := by
  unfold feed
  rw [nary_result]; congr 1; funext k; fin_cases k <;> rfl

end Cert.LibNaryThree

end
-- ==== Proof.KIBridge.lean ====
/-
  The kernel program's buffers, segment by segment, are the reference's stages.
  Both programs build the same graph data from the edge list (source and destination lists with the self loops
  appended, the degrees, their inverse square roots, the per-edge normalisation) by the same host operations; per
  layer one projects by a kernel region and the other by one matrix product, both aggregate the scaled gathered rows
  by the same scatter-add, one squashes by a kernel region and the other by the spelt-out logistic function, and both
  gather the agents' rows and join the three layers' rows. Each region's result array is the other program's array
  (the products by the plain-product lemma, the squashed outputs by `sigRows_eq_spelt`); every host stretch is the
  same function of equal operands.
-/
import proofs.«122437_j7121055776908_1_alg».proof.Proof.KIRun
import proofs.«122437_j7121055776908_1_alg».proof.Proof.KIValue0
import proofs.«122437_j7121055776908_1_alg».proof.Proof.KIValue1
import proofs.«122437_j7121055776908_1_alg».proof.Proof.KIValue2
import proofs.«122437_j7121055776908_1_alg».proof.Proof.KIValue3
import proofs.«122437_j7121055776908_1_alg».proof.Proof.KIValue4
import proofs.«122437_j7121055776908_1_alg».proof.Proof.KIValue5
import proofs.«122437_j7121055776908_1_alg».proof.Proof.LibSigRows
import proofs.«122437_j7121055776908_1_alg».proof.Proof.RefReadP

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.Lib.PlainDot Cert.Sig
open Cert.ReferenceIdeal.ReadP (val_main_v4 val_main_v6 val_main_v7 val_main_v15 val_main_v30 val_main_v43 val_main_v52 val_main_v59 val_main_v60 val_main_v99 val_main_v108 val_main_v115 val_main_v116 val_main_v155 val_main_v164 val_main_v171 val_main_v172 val_main_v172_eq val_main_v13 val_main_v14 val_main_cst_2 val_main_v11)

variable (m : (ℓ : Loc nD τ sig) → Buf (Elt Ideal) ℓ) (ρ : Dev nD → PrngReg) (c : Dev nD)

/-- An argument array at launch. -/
abbrev arg (r : Ref sig .tc) : Buf (Elt Ideal) ((c : Thread nD τ).loc r) := m ((c : Thread nD τ).loc r)

/-! ## The graph data -/

/-- The source list with the self loops appended. -/
theorem src3 : W3 m ρ c (Proc.devRef .tc main_v5) = val_main_v6 (F := Ideal) (arg m c main_arg1) := by
  refine ((W3_of m ρ c main_v5 (by decide)).trans ((W2_of m ρ c main_v5 (by decide)))).trans ?_
  show StableHlo.after hostOps0 (W0 m ρ c) (Proc.devRef .tc main_v5) = _
  after_results_simp
  rfl

/-- The destination list with the self loops appended. -/
theorem dst3 : W3 m ρ c (Proc.devRef .tc main_v6) = val_main_v7 (F := Ideal) (arg m c main_arg1) := by
  refine ((W3_of m ρ c main_v6 (by decide)).trans ((W2_of m ρ c main_v6 (by decide)))).trans ?_
  show StableHlo.after hostOps0 (W0 m ρ c) (Proc.devRef .tc main_v6) = _
  after_results_simp
  rfl

/-- Where the degree is positive, -/
theorem pos1 : W1 m ρ c (Proc.devRef .tc main_v12) = val_main_v13 (F := Ideal) (arg m c main_arg1) := by
  show StableHlo.after hostOps0 (W0 m ρ c) (Proc.devRef .tc main_v12) = _
  after_results_simp
  rfl

/-- the inverse square root of the degree, -/
theorem rsq1 : W1 m ρ c (Proc.devRef .tc main_v13) = val_main_v14 (F := Ideal) (arg m c main_arg1) := by
  show StableHlo.after hostOps0 (W0 m ρ c) (Proc.devRef .tc main_v13) = _
  after_results_simp
  rfl

/-- and the zero that stands where it is not. -/
theorem zero1 : W1 m ρ c (Proc.devRef .tc main_cst_2) = val_main_cst_2 (F := Ideal) := by
  show StableHlo.after hostOps0 (W0 m ρ c) (Proc.devRef .tc main_cst_2) = _
  after_results_simp
  rfl

/-- The inverse square roots of the degrees (zero where the degree is not positive). -/
theorem dinv2 : W2 m ρ c (Proc.devRef .tc main_v14) = val_main_v15 (F := Ideal) (arg m c main_arg1) := by
  have h1 := pos1 m ρ c
  have h2 := rsq1 m ρ c
  have h3 := zero1 m ρ c
  show StableHlo.after hostOps0_1 (W1 m ρ c) (Proc.devRef .tc main_v14) = _
  generalize W1 m ρ c = V at h1 h2 h3 ⊢
  after_results_simp
  rw [h1, h2, h3]
  -- the called function's typed references carry transports along "the buffer's type is the value's type": each is the identity
  have t14 : ∀ v : (⟨S50000, .f32⟩ : BufTy).Contents (Elt Ideal), (TRef.of (T := ⟨S50000, .f32⟩) main_v14).toBuf v = v := fun _ => rfl
  have o12 : ∀ v, (TRef.of (T := ⟨S50000, .i1⟩) main_v12).ofBuf (Val := Elt Ideal) v = v := fun _ => rfl
  have o13 : ∀ v, (TRef.of (T := ⟨S50000, .f32⟩) main_v13).ofBuf (Val := Elt Ideal) v = v := fun _ => rfl
  have oc1 : ∀ v, (TRef.of (T := ⟨S50000, .f32⟩) main_call0_v1).ofBuf (Val := Elt Ideal) v = v := fun _ => rfl
  have tc1 : ∀ v : (⟨S50000, .f32⟩ : BufTy).Contents (Elt Ideal), (TRef.of (T := ⟨S50000, .f32⟩) main_call0_v1).toBuf v = v := fun _ => rfl
  have oc0 : ∀ v, (TRef.of (T := ⟨S_, .f32⟩) main_call0_v0).ofBuf (Val := Elt Ideal) v = v := fun _ => rfl
  have tc0 : ∀ v : (⟨S_, .f32⟩ : BufTy).Contents (Elt Ideal), (TRef.of (T := ⟨S_, .f32⟩) main_call0_v0).toBuf v = v := fun _ => rfl
  have o2 : ∀ v, (TRef.of (T := ⟨S_, .f32⟩) main_cst_2).ofBuf (Val := Elt Ideal) v = v := fun _ => rfl
  rw [t14, o12, o13, oc1, tc1, oc0, tc0, o2]
  rfl

/-- The per-edge normalisation. -/
theorem norm3 : W3 m ρ c (Proc.devRef .tc main_v29) = val_main_v30 (F := Ideal) (arg m c main_arg1) := by
  have h1 : W2 m ρ c (Proc.devRef .tc main_v5) = val_main_v6 (F := Ideal) (arg m c main_arg1) :=
    (W3_of m ρ c main_v5 (by decide)).symm.trans (src3 m ρ c)
  have h2 : W2 m ρ c (Proc.devRef .tc main_v6) = val_main_v7 (F := Ideal) (arg m c main_arg1) :=
    (W3_of m ρ c main_v6 (by decide)).symm.trans (dst3 m ρ c)
  have h3 := dinv2 m ρ c
  show StableHlo.after hostOps0_2 (W2 m ρ c) (Proc.devRef .tc main_v29) = _
  generalize W2 m ρ c = V at h1 h2 h3 ⊢
  after_results_simp
  rw [h1, h2, h3]
  rfl

/-! ## Layer 1 -/

theorem src4 : W4 m ρ c (Proc.devRef .tc main_v5) = val_main_v6 (F := Ideal) (arg m c main_arg1) :=
  ((W4_of_ne m ρ c main_v5 (by decide))).trans (src3 m ρ c)
theorem dst4 : W4 m ρ c (Proc.devRef .tc main_v6) = val_main_v7 (F := Ideal) (arg m c main_arg1) :=
  ((W4_of_ne m ρ c main_v6 (by decide))).trans (dst3 m ρ c)
theorem norm4 : W4 m ρ c (Proc.devRef .tc main_v29) = val_main_v30 (F := Ideal) (arg m c main_arg1) :=
  ((W4_of_ne m ρ c main_v29 (by decide))).trans (norm3 m ρ c)

/-- The projection: the region's result array is the one matrix product. -/
theorem mm1 : W4 m ρ c (Proc.devRef .tc main_v30) = val_main_v4 (F := Ideal) (arg m c main_arg0) (arg m c main_arg4) := by
  refine (W4_arr m ρ c 2).trans ((final0 (V3 m ρ) c).trans ?_)
  rw [show V3 m ρ c (Pipeline.arrRef spec0 0) = arg m c main_arg0 from (W3_of m ρ c main_arg0 (by decide)).trans ((W2_of m ρ c main_arg0 (by decide)).trans ((W1_of m ρ c main_arg0 (by decide)))),
    show V3 m ρ c (Pipeline.arrRef spec0 1) = arg m c main_arg4 from (W3_of m ρ c main_arg4 (by decide)).trans ((W2_of m ρ c main_arg4 (by decide)).trans ((W1_of m ρ c main_arg4 (by decide))))]
  unfold val_main_v4
  exact (dotGeneral_eq _ rfl _ _ _ _).symm

/-- The aggregation: the scaled gathered rows scatter-added by destination. -/
theorem agg1 : W5 m ρ c (Proc.devRef .tc main_v43) = val_main_v43 (F := Ideal) (arg m c main_arg0) (arg m c main_arg1) (arg m c main_arg4) := by
  show StableHlo.after hostOps1 (W4 m ρ c) (Proc.devRef .tc main_v43) = _
  after_results_simp
  rw [src4 m ρ c, dst4 m ρ c, norm4 m ρ c, mm1 m ρ c]
  rfl

/-- The bias vector recast as a row. -/
theorem bias1 : W5 m ρ c (Proc.devRef .tc main_v44) = shapeCast S1x64 (arg m c main_arg5) shapeCasts_S64_S1x64 := by
  show StableHlo.after hostOps1 (W4 m ρ c) (Proc.devRef .tc main_v44) = _
  after_results_simp
  rw [show W4 m ρ c (Proc.devRef .tc main_arg5) = arg m c main_arg5 from (W4_of_ne m ρ c main_arg5 (by decide)).trans ((W3_of m ρ c main_arg5 (by decide)).trans ((W2_of m ρ c main_arg5 (by decide)).trans ((W1_of m ρ c main_arg5 (by decide)))))]
  rfl

/-- The squashed output: the region's result array is the spelt-out logistic function of the aggregation plus the bias. -/
theorem h1 : W6 m ρ c (Proc.devRef .tc main_v45) = val_main_v52 (F := Ideal) (arg m c main_arg0) (arg m c main_arg1) (arg m c main_arg4) (arg m c main_arg5) := by
  refine (W6_arr m ρ c 2).trans ((final1 (V5 m ρ) c).trans ?_)
  rw [show V5 m ρ c (Pipeline.arrRef spec1 0) = val_main_v43 (F := Ideal) (arg m c main_arg0) (arg m c main_arg1) (arg m c main_arg4) from agg1 m ρ c,
    show V5 m ρ c (Pipeline.arrRef spec1 1) = shapeCast S1x64 (arg m c main_arg5) shapeCasts_S64_S1x64 from bias1 m ρ c]
  refine (sigRows_eq_spelt _ _ _ Cert.ReferenceIdeal.Facts₀.bcast_S64_S1x64_1 Cert.ReferenceIdeal.Facts₀.bcast_S1x64_S50000x64_0_1 Cert.ReferenceIdeal.Facts₀.bcast_S_S50000x64).trans ?_
  rfl

/-- The agents' rows of this layer's output. -/
theorem out1 : W7 m ρ c (Proc.devRef .tc main_v52) = val_main_v59 (F := Ideal) (arg m c main_arg0) (arg m c main_arg1) (arg m c main_arg3) (arg m c main_arg4) (arg m c main_arg5) := by
  show StableHlo.after hostOps2 (W6 m ρ c) (Proc.devRef .tc main_v52) = _
  after_results_simp
  rw [h1 m ρ c, show W6 m ρ c (Proc.devRef .tc main_arg3) = arg m c main_arg3 from (W6_of_ne m ρ c main_arg3 (by decide)).trans ((W5_of m ρ c main_arg3 (by decide)).trans ((W4_of_ne m ρ c main_arg3 (by decide)).trans ((W3_of m ρ c main_arg3 (by decide)).trans ((W2_of m ρ c main_arg3 (by decide)).trans ((W1_of m ρ c main_arg3 (by decide)))))))]
  rfl

/-! ## Layer 2 -/

theorem src8 : W8 m ρ c (Proc.devRef .tc main_v5) = val_main_v6 (F := Ideal) (arg m c main_arg1) :=
  ((W8_of_ne m ρ c main_v5 (by decide)).trans ((W7_of m ρ c main_v5 (by decide)).trans ((W6_of_ne m ρ c main_v5 (by decide)).trans ((W5_of m ρ c main_v5 (by decide)).trans ((W4_of_ne m ρ c main_v5 (by decide))))))).trans (src3 m ρ c)
theorem dst8 : W8 m ρ c (Proc.devRef .tc main_v6) = val_main_v7 (F := Ideal) (arg m c main_arg1) :=
  ((W8_of_ne m ρ c main_v6 (by decide)).trans ((W7_of m ρ c main_v6 (by decide)).trans ((W6_of_ne m ρ c main_v6 (by decide)).trans ((W5_of m ρ c main_v6 (by decide)).trans ((W4_of_ne m ρ c main_v6 (by decide))))))).trans (dst3 m ρ c)
theorem norm8 : W8 m ρ c (Proc.devRef .tc main_v29) = val_main_v30 (F := Ideal) (arg m c main_arg1) :=
  ((W8_of_ne m ρ c main_v29 (by decide)).trans ((W7_of m ρ c main_v29 (by decide)).trans ((W6_of_ne m ρ c main_v29 (by decide)).trans ((W5_of m ρ c main_v29 (by decide)).trans ((W4_of_ne m ρ c main_v29 (by decide))))))).trans (norm3 m ρ c)

/-- The projection: the region's result array is the one matrix product. -/
theorem mm2 : W8 m ρ c (Proc.devRef .tc main_v53) = val_main_v60 (F := Ideal) (arg m c main_arg0) (arg m c main_arg1) (arg m c main_arg4) (arg m c main_arg5) (arg m c main_arg6) := by
  refine (W8_arr m ρ c 2).trans ((final2 (V7 m ρ) c).trans ?_)
  rw [show V7 m ρ c (Pipeline.arrRef spec2 0) = val_main_v52 (F := Ideal) (arg m c main_arg0) (arg m c main_arg1) (arg m c main_arg4) (arg m c main_arg5) from ((W7_of m ρ c main_v45 (by decide))).trans (h1 m ρ c),
    show V7 m ρ c (Pipeline.arrRef spec2 1) = arg m c main_arg6 from (W7_of m ρ c main_arg6 (by decide)).trans ((W6_of_ne m ρ c main_arg6 (by decide)).trans ((W5_of m ρ c main_arg6 (by decide)).trans ((W4_of_ne m ρ c main_arg6 (by decide)).trans ((W3_of m ρ c main_arg6 (by decide)).trans ((W2_of m ρ c main_arg6 (by decide)).trans ((W1_of m ρ c main_arg6 (by decide))))))))]
  unfold val_main_v60
  exact (dotGeneral_eq _ rfl _ _ _ _).symm

/-- The aggregation: the scaled gathered rows scatter-added by destination. -/
theorem agg2 : W9 m ρ c (Proc.devRef .tc main_v66) = val_main_v99 (F := Ideal) (arg m c main_arg0) (arg m c main_arg1) (arg m c main_arg4) (arg m c main_arg5) (arg m c main_arg6) := by
  show StableHlo.after hostOps3 (W8 m ρ c) (Proc.devRef .tc main_v66) = _
  after_results_simp
  rw [src8 m ρ c, dst8 m ρ c, norm8 m ρ c, mm2 m ρ c]
  rfl

/-- The bias vector recast as a row. -/
theorem bias2 : W9 m ρ c (Proc.devRef .tc main_v67) = shapeCast S1x64 (arg m c main_arg7) shapeCasts_S64_S1x64 := by
  show StableHlo.after hostOps3 (W8 m ρ c) (Proc.devRef .tc main_v67) = _
  after_results_simp
  rw [show W8 m ρ c (Proc.devRef .tc main_arg7) = arg m c main_arg7 from (W8_of_ne m ρ c main_arg7 (by decide)).trans ((W7_of m ρ c main_arg7 (by decide)).trans ((W6_of_ne m ρ c main_arg7 (by decide)).trans ((W5_of m ρ c main_arg7 (by decide)).trans ((W4_of_ne m ρ c main_arg7 (by decide)).trans ((W3_of m ρ c main_arg7 (by decide)).trans ((W2_of m ρ c main_arg7 (by decide)).trans ((W1_of m ρ c main_arg7 (by decide)))))))))]
  rfl

/-- The squashed output: the region's result array is the spelt-out logistic function of the aggregation plus the bias. -/
theorem h2 : W10 m ρ c (Proc.devRef .tc main_v68) = val_main_v108 (F := Ideal) (arg m c main_arg0) (arg m c main_arg1) (arg m c main_arg4) (arg m c main_arg5) (arg m c main_arg6) (arg m c main_arg7) := by
  refine (W10_arr m ρ c 2).trans ((final3 (V9 m ρ) c).trans ?_)
  rw [show V9 m ρ c (Pipeline.arrRef spec3 0) = val_main_v99 (F := Ideal) (arg m c main_arg0) (arg m c main_arg1) (arg m c main_arg4) (arg m c main_arg5) (arg m c main_arg6) from agg2 m ρ c,
    show V9 m ρ c (Pipeline.arrRef spec3 1) = shapeCast S1x64 (arg m c main_arg7) shapeCasts_S64_S1x64 from bias2 m ρ c]
  refine (sigRows_eq_spelt _ _ _ Cert.ReferenceIdeal.Facts₀.bcast_S64_S1x64_1 Cert.ReferenceIdeal.Facts₀.bcast_S1x64_S50000x64_0_1 Cert.ReferenceIdeal.Facts₀.bcast_S_S50000x64).trans ?_
  rfl

/-- The agents' rows of this layer's output. -/
theorem out2 : W11 m ρ c (Proc.devRef .tc main_v75) = val_main_v115 (F := Ideal) (arg m c main_arg0) (arg m c main_arg1) (arg m c main_arg3) (arg m c main_arg4) (arg m c main_arg5) (arg m c main_arg6) (arg m c main_arg7) := by
  show StableHlo.after hostOps4 (W10 m ρ c) (Proc.devRef .tc main_v75) = _
  after_results_simp
  rw [h2 m ρ c, show W10 m ρ c (Proc.devRef .tc main_arg3) = arg m c main_arg3 from (W10_of_ne m ρ c main_arg3 (by decide)).trans ((W9_of m ρ c main_arg3 (by decide)).trans ((W8_of_ne m ρ c main_arg3 (by decide)).trans ((W7_of m ρ c main_arg3 (by decide)).trans ((W6_of_ne m ρ c main_arg3 (by decide)).trans ((W5_of m ρ c main_arg3 (by decide)).trans ((W4_of_ne m ρ c main_arg3 (by decide)).trans ((W3_of m ρ c main_arg3 (by decide)).trans ((W2_of m ρ c main_arg3 (by decide)).trans ((W1_of m ρ c main_arg3 (by decide)))))))))))]
  rfl

/-! ## Layer 3 -/

theorem src12 : W12 m ρ c (Proc.devRef .tc main_v5) = val_main_v6 (F := Ideal) (arg m c main_arg1) :=
  ((W12_of_ne m ρ c main_v5 (by decide)).trans ((W11_of m ρ c main_v5 (by decide)).trans ((W10_of_ne m ρ c main_v5 (by decide)).trans ((W9_of m ρ c main_v5 (by decide)).trans ((W8_of_ne m ρ c main_v5 (by decide)).trans ((W7_of m ρ c main_v5 (by decide)).trans ((W6_of_ne m ρ c main_v5 (by decide)).trans ((W5_of m ρ c main_v5 (by decide)).trans ((W4_of_ne m ρ c main_v5 (by decide))))))))))).trans (src3 m ρ c)
theorem dst12 : W12 m ρ c (Proc.devRef .tc main_v6) = val_main_v7 (F := Ideal) (arg m c main_arg1) :=
  ((W12_of_ne m ρ c main_v6 (by decide)).trans ((W11_of m ρ c main_v6 (by decide)).trans ((W10_of_ne m ρ c main_v6 (by decide)).trans ((W9_of m ρ c main_v6 (by decide)).trans ((W8_of_ne m ρ c main_v6 (by decide)).trans ((W7_of m ρ c main_v6 (by decide)).trans ((W6_of_ne m ρ c main_v6 (by decide)).trans ((W5_of m ρ c main_v6 (by decide)).trans ((W4_of_ne m ρ c main_v6 (by decide))))))))))).trans (dst3 m ρ c)
theorem norm12 : W12 m ρ c (Proc.devRef .tc main_v29) = val_main_v30 (F := Ideal) (arg m c main_arg1) :=
  ((W12_of_ne m ρ c main_v29 (by decide)).trans ((W11_of m ρ c main_v29 (by decide)).trans ((W10_of_ne m ρ c main_v29 (by decide)).trans ((W9_of m ρ c main_v29 (by decide)).trans ((W8_of_ne m ρ c main_v29 (by decide)).trans ((W7_of m ρ c main_v29 (by decide)).trans ((W6_of_ne m ρ c main_v29 (by decide)).trans ((W5_of m ρ c main_v29 (by decide)).trans ((W4_of_ne m ρ c main_v29 (by decide))))))))))).trans (norm3 m ρ c)

/-- The projection: the region's result array is the one matrix product. -/
theorem mm3 : W12 m ρ c (Proc.devRef .tc main_v76) = val_main_v116 (F := Ideal) (arg m c main_arg0) (arg m c main_arg1) (arg m c main_arg4) (arg m c main_arg5) (arg m c main_arg6) (arg m c main_arg7) (arg m c main_arg8) := by
  refine (W12_arr m ρ c 2).trans ((final4 (V11 m ρ) c).trans ?_)
  rw [show V11 m ρ c (Pipeline.arrRef spec4 0) = val_main_v108 (F := Ideal) (arg m c main_arg0) (arg m c main_arg1) (arg m c main_arg4) (arg m c main_arg5) (arg m c main_arg6) (arg m c main_arg7) from ((W11_of m ρ c main_v68 (by decide))).trans (h2 m ρ c),
    show V11 m ρ c (Pipeline.arrRef spec4 1) = arg m c main_arg8 from (W11_of m ρ c main_arg8 (by decide)).trans ((W10_of_ne m ρ c main_arg8 (by decide)).trans ((W9_of m ρ c main_arg8 (by decide)).trans ((W8_of_ne m ρ c main_arg8 (by decide)).trans ((W7_of m ρ c main_arg8 (by decide)).trans ((W6_of_ne m ρ c main_arg8 (by decide)).trans ((W5_of m ρ c main_arg8 (by decide)).trans ((W4_of_ne m ρ c main_arg8 (by decide)).trans ((W3_of m ρ c main_arg8 (by decide)).trans ((W2_of m ρ c main_arg8 (by decide)).trans ((W1_of m ρ c main_arg8 (by decide))))))))))))]
  unfold val_main_v116
  exact (dotGeneral_eq _ rfl _ _ _ _).symm

/-- The aggregation: the scaled gathered rows scatter-added by destination. -/
theorem agg3 : W13 m ρ c (Proc.devRef .tc main_v89) = val_main_v155 (F := Ideal) (arg m c main_arg0) (arg m c main_arg1) (arg m c main_arg4) (arg m c main_arg5) (arg m c main_arg6) (arg m c main_arg7) (arg m c main_arg8) := by
  show StableHlo.after hostOps5 (W12 m ρ c) (Proc.devRef .tc main_v89) = _
  after_results_simp
  rw [src12 m ρ c, dst12 m ρ c, norm12 m ρ c, mm3 m ρ c]
  rfl

/-- The bias vector recast as a row. -/
theorem bias3 : W13 m ρ c (Proc.devRef .tc main_v90) = shapeCast S1x64 (arg m c main_arg9) shapeCasts_S64_S1x64 := by
  show StableHlo.after hostOps5 (W12 m ρ c) (Proc.devRef .tc main_v90) = _
  after_results_simp
  rw [show W12 m ρ c (Proc.devRef .tc main_arg9) = arg m c main_arg9 from (W12_of_ne m ρ c main_arg9 (by decide)).trans ((W11_of m ρ c main_arg9 (by decide)).trans ((W10_of_ne m ρ c main_arg9 (by decide)).trans ((W9_of m ρ c main_arg9 (by decide)).trans ((W8_of_ne m ρ c main_arg9 (by decide)).trans ((W7_of m ρ c main_arg9 (by decide)).trans ((W6_of_ne m ρ c main_arg9 (by decide)).trans ((W5_of m ρ c main_arg9 (by decide)).trans ((W4_of_ne m ρ c main_arg9 (by decide)).trans ((W3_of m ρ c main_arg9 (by decide)).trans ((W2_of m ρ c main_arg9 (by decide)).trans ((W1_of m ρ c main_arg9 (by decide)))))))))))))]
  rfl

/-- The squashed output: the region's result array is the spelt-out logistic function of the aggregation plus the bias. -/
theorem h3 : W14 m ρ c (Proc.devRef .tc main_v91) = val_main_v164 (F := Ideal) (arg m c main_arg0) (arg m c main_arg1) (arg m c main_arg4) (arg m c main_arg5) (arg m c main_arg6) (arg m c main_arg7) (arg m c main_arg8) (arg m c main_arg9) := by
  refine (W14_arr m ρ c 2).trans ((final5 (V13 m ρ) c).trans ?_)
  rw [show V13 m ρ c (Pipeline.arrRef spec5 0) = val_main_v155 (F := Ideal) (arg m c main_arg0) (arg m c main_arg1) (arg m c main_arg4) (arg m c main_arg5) (arg m c main_arg6) (arg m c main_arg7) (arg m c main_arg8) from agg3 m ρ c,
    show V13 m ρ c (Pipeline.arrRef spec5 1) = shapeCast S1x64 (arg m c main_arg9) shapeCasts_S64_S1x64 from bias3 m ρ c]
  refine (sigRows_eq_spelt _ _ _ Cert.ReferenceIdeal.Facts₀.bcast_S64_S1x64_1 Cert.ReferenceIdeal.Facts₀.bcast_S1x64_S50000x64_0_1 Cert.ReferenceIdeal.Facts₀.bcast_S_S50000x64).trans ?_
  rfl

/-! ## The result -/

/-- The three layers' agent rows joined along the columns: the kernel program's result buffer is the reference's result stage. -/
theorem result15 : W15 m ρ c (Proc.devRef .tc main_v99) = val_main_v172 (F := Ideal) (arg m c main_arg0) (arg m c main_arg1) (arg m c main_arg3) (arg m c main_arg4) (arg m c main_arg5) (arg m c main_arg6) (arg m c main_arg7) (arg m c main_arg8) (arg m c main_arg9) := by
  show StableHlo.after hostOps6 (W14 m ρ c) (Proc.devRef .tc main_v99) = _
  simp (disch := decide) only [after_cons, after_nil,
    nullary_result', unary_result', binary_result', ternary_result', quaternary_result', reshape_result', nary4_result',
    Cert.LibNaryThree.nary3_feed, unaryIndexed_result', binaryIndexed_result',
    nullary_result_ne', unary_result_ne', binary_result_ne', ternary_result_ne', quaternary_result_ne', reshape_result_ne',
    nary_result_ne', unaryIndexed_result_ne', binaryIndexed_result_ne']
  rw [h3 m ρ c, show W14 m ρ c (Proc.devRef .tc main_arg3) = arg m c main_arg3 from (W14_of_ne m ρ c main_arg3 (by decide)).trans ((W13_of m ρ c main_arg3 (by decide)).trans ((W12_of_ne m ρ c main_arg3 (by decide)).trans ((W11_of m ρ c main_arg3 (by decide)).trans ((W10_of_ne m ρ c main_arg3 (by decide)).trans ((W9_of m ρ c main_arg3 (by decide)).trans ((W8_of_ne m ρ c main_arg3 (by decide)).trans ((W7_of m ρ c main_arg3 (by decide)).trans ((W6_of_ne m ρ c main_arg3 (by decide)).trans ((W5_of m ρ c main_arg3 (by decide)).trans ((W4_of_ne m ρ c main_arg3 (by decide)).trans ((W3_of m ρ c main_arg3 (by decide)).trans ((W2_of m ρ c main_arg3 (by decide)).trans ((W1_of m ρ c main_arg3 (by decide))))))))))))))),
    show W14 m ρ c (Proc.devRef .tc main_v52) = val_main_v59 (F := Ideal) (arg m c main_arg0) (arg m c main_arg1) (arg m c main_arg3) (arg m c main_arg4) (arg m c main_arg5) from ((W14_of_ne m ρ c main_v52 (by decide)).trans ((W13_of m ρ c main_v52 (by decide)).trans ((W12_of_ne m ρ c main_v52 (by decide)).trans ((W11_of m ρ c main_v52 (by decide)).trans ((W10_of_ne m ρ c main_v52 (by decide)).trans ((W9_of m ρ c main_v52 (by decide)).trans ((W8_of_ne m ρ c main_v52 (by decide))))))))).trans (out1 m ρ c),
    show W14 m ρ c (Proc.devRef .tc main_v75) = val_main_v115 (F := Ideal) (arg m c main_arg0) (arg m c main_arg1) (arg m c main_arg3) (arg m c main_arg4) (arg m c main_arg5) (arg m c main_arg6) (arg m c main_arg7) from ((W14_of_ne m ρ c main_v75 (by decide)).trans ((W13_of m ρ c main_v75 (by decide)).trans ((W12_of_ne m ρ c main_v75 (by decide))))).trans (out2 m ρ c)]
  rfl

end Cert.KernelIdeal.Fr

end
-- ==== Proof.lean ====
/-
  The certificate of a three-layer graph convolution: per layer a projection `h · W` and a squashing
  `sigmoid (agg + b)`, each a kernel region over 25 blocks of 2000 rows, with the gather / scatter-add aggregation
  over the edge list (self loops appended, symmetric normalisation) and the final gather of the agents' rows and
  their join along the columns done by host operations; the reference does the projections by one matrix product
  each and spells the logistic function out.
  * The frames of the two kernel programs: @main is fifteen segments (nine host stretches, six regions); each
    region's body is run on its staging buffers and the library's pipeline theorem carries it over the grid; no
    segment writes an argument array.
  * The reference's frame is its run with the result dropped.
  * The idealisation rewrote nothing, so there is nothing to preserve.
  * On the extended reals both programs end with one array: every host stretch is the same function of equal
    operands on both sides, each projection region's result is the whole product (a product of a block of rows is
    the block of rows of the product), and each squashing region's result is `1 / (1 + exp (-(agg + b)))` entry by
    entry, which is how the logistic function reads there (`⊥ ↦ 0`, `⊤ ↦ 1`). No law that needs finiteness is used.
-/
import proofs.«122437_j7121055776908_1_alg».proof.Defs
import proofs.«122437_j7121055776908_1_alg».proof.Proof.Gen.Kernel
import proofs.«122437_j7121055776908_1_alg».proof.Proof.Gen.KernelIdeal
import proofs.«122437_j7121055776908_1_alg».proof.Proof.Gen.ReferenceIdeal
import proofs.«122437_j7121055776908_1_alg».proof.Proof.Gen.Pre_finite_inputs
import proofs.«122437_j7121055776908_1_alg».proof.Proof.KBRun
import proofs.«122437_j7121055776908_1_alg».proof.Proof.KIRun
import proofs.«122437_j7121055776908_1_alg».proof.Proof.KIBridge
import proofs.«122437_j7121055776908_1_alg».proof.Proof.RefReadP
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.KernelIdeal Cert.KernelIdeal.Fr in
/-- Both programs end with the reference's result stage of the (agreeing) argument arrays. -/
theorem algebraic : Cert.algebraic_KernelIdeal_ReferenceIdeal := by
  intro m ρ m' ρ' _ hagree
  refine ⟨fun c => W15 m ρ c (Proc.devRef .tc main_v99), ?_, ?_⟩
  · exact (θ_run Cert.KernelIdeal.defs _ _).mono (fun r h c => ⟨h c _ (mem_uc main_v99 (by decide)),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c)⟩) (run_all m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v172_eq, e0, e1, e3, e4, e5, e6, e7, e8, e9]
    exact (result15 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
